-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_arg8 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S2x1000000 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1000000x64 : Shape := ⟨2, ![1000000, 64]⟩
abbrev S1x64 : Shape := ⟨2, ![1, 64]⟩
abbrev S10000 : Shape := ⟨1, ![10000]⟩

abbrev nBuf : Space → Nat
  | .hbm => 74
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S100000x128, .f32⟩
  | .hbm, ⟨28, _⟩ => ⟨S1000000x1, .i32⟩
  | .hbm, ⟨29, _⟩ => ⟨S100000x128, .f32⟩
  | .hbm, ⟨30, _⟩ => ⟨S_, .f32⟩
  | .hbm, ⟨31, _⟩ => ⟨S1000000, .f32⟩
  | .hbm, ⟨32, _⟩ => ⟨S_, .f32⟩
  | .hbm, ⟨33, _⟩ => ⟨S100000, .f32⟩
  | .hbm, ⟨34, _⟩ => ⟨S1000000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S1x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S100000, .f32⟩
  | .hbm, ⟨63, _⟩ => ⟨S1000000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S1x64, .f32⟩
  | .hbm, ⟨73, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S10000x128, .f32⟩
  | .local _ .vmem, ⟨11, _⟩ => ⟨S10000x128, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S128x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S100000x128.size a
  hwx0_7 : ∀ i : grid0.Coords, EltTy.bits .f32 = 32 ∨ (Rect.block (s := S100000x128) S10000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S100000x64.size a
  hwx0_8 : ∀ i : grid0.Coords, EltTy.bits .f32 = 32 ∨ (Rect.block (s := S100000x64) S10000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S10000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S100000, .f32⟩
  | .hbm, ⟨30, _⟩ => ⟨S1000000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x128, .f32⟩
  | .hbm, ⟨60, _⟩ => ⟨S_, .f32⟩
  | .hbm, ⟨61, _⟩ => ⟨S100000x128, .f32⟩
  | .hbm, ⟨62, _⟩ => ⟨S1000000x1, .i32⟩
  | .hbm, ⟨63, _⟩ => ⟨S100000x128, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S100000, .f32⟩
  | .hbm, ⟨68, _⟩ => ⟨S1000000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v59 : Ref sig .tc := ⟨.hbm, 96, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.LibMeanScale.lean ====
/-
  Scaling by a reciprocal against dividing, on the extended reals.

  A neighbour mean is a sum divided by a count clamped below at one. One program multiplies the sum by the
  reciprocal `1 / max(n, 1)` computed once; the other divides the sum by `max(n, 1)`. On the extended reals the
  quotient `x / y` is `x · y⁻¹` whenever `y ≠ 0`, and `max(n, 1) ≥ 1` is never zero (whatever `n` is, the
  infinities included), so `a · (1 · d⁻¹) = a · d⁻¹ = a / d`: no finiteness of `a` or `n` is needed.
-/
import Idealize.ShloMosaic.PureOps.Ideal.Laws

noncomputable section

namespace Idealize.ShloMosaic.MeanScale

open Idealize.ShloMosaic

/-- The single-precision word `0x3F800000` denotes the real number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- A count clamped below at one is not zero. -/
theorem max_one_ne_zero (x : EReal) : max x 1 ≠ 0 :=
  ne_of_gt (lt_of_lt_of_le zero_lt_one (le_max_right x 1))

/-- **Scaling by the reciprocal of a clamped count is dividing by it**, for every extended real `a` and `x`. -/
theorem mul_recip_eq_div (a x : EReal) : a * Ideal.div 1 (max x 1) = Ideal.div a (max x 1) := by
  unfold Ideal.div
  rw [if_neg (max_one_ne_zero x), if_neg (max_one_ne_zero x), one_mul]

/-- The array form: a sum array `agg` scaled entrywise by the reciprocal of the clamped count read at `β i`, against
    `agg` divided entrywise by the clamped count read at the same place. `β` is whatever re-indexing carries an entry
    of the sum array to its row's count. -/
theorem mulf_recip_eq_hostDivf {s sN : Shape} (β : s.Idx → sN.Idx) (agg : FVec Ideal s .f32) (deg : FVec Ideal sN .f32) :
    mulf agg (fun i => Host.divf (constant (F := Ideal) sN .f32 0x3F800000#32)
        (maximumf deg (constant (F := Ideal) sN .f32 0x3F800000#32)) (β i))
      = Host.divf agg (fun i => maximumf deg (constant (F := Ideal) sN .f32 0x3F800000#32) (β i)) := by
  funext i
  simp only [mulf, Host.divf, maximumf, constant, Ideal.mulf_def, Ideal.hostDivf_def, Ideal.maximumf_def,
    Ideal.ofBits_def, ofBits_one_f32]
  exact mul_recip_eq_div _ _

end Idealize.ShloMosaic.MeanScale

end
-- ==== Proof.SageMath.lean ====
/-
  Two layers of neighbour-mean graph convolution on the extended reals.

  A node `n` has a finite set `nb n` of incoming edges, an edge `e` a source node `src e`.  One layer sends node
  features `X` to
      conv X n j = (Σₖ (Σ_{e ∈ nb n} X (src e) k) / deg n · Wl k j) + b j + Σₖ X n k · Wr k j,
  with `deg n = max(|nb n|, 1)` computed as the programs compute it (a sum of ones from zero, clamped below at one).
  Two facts about it are proved here.  Scaling the neighbour sum by the reciprocal `1 / deg n` is dividing it by
  `deg n`, for every extended real.  And the neighbour mean commutes with a linear map,
      (Σ_{e ∈ nb n} Σₖ H (src e) k · W k j) · (1 / deg n) = Σₖ (Σ_{e ∈ nb n} H (src e) k) / deg n · W k j,
  when `H` and `W` are real: on the extended reals the distributive law that exchanges the two sums fails at the
  infinities, so this is where finiteness is used.  Features that are real stay real through a layer and a
  rectifier, which is how the second layer's input is known to be real.
-/
import Idealize.ShloMosaic.PureOps.Ideal
import proofs.«169007_j60086592471214_2_alg».proof.Proof.LibERealSum
import proofs.«169007_j60086592471214_2_alg».proof.Proof.LibMeanScale

noncomputable section

open scoped BigOperators

namespace Sage

open Idealize.ShloMosaic

/-! ## Extended reals that are real numbers -/

/-- An extended real that is a real number. -/
def IsReal (a : EReal) : Prop := ∃ r : ℝ, a = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

/-- The embedding of the reals is monotone, so it commutes with `max`. -/
theorem coe_max (x y : ℝ) : ((Max.max x y : ℝ) : EReal) = Max.max (x : EReal) (y : EReal) :=
  EReal.coe_strictMono.monotone.map_max

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The clamped in-degree -/

variable {ν ε κ γ : Type*}

/-- The in-degree of a node clamped below at one: a sum of ones from zero, then the maximum with one. -/
def deg (nb : ν → Finset ε) (n : ν) : EReal := max (0 + ∑ _e ∈ nb n, (1 : EReal)) 1

/-- The clamped in-degree is a nonzero real number. -/
theorem deg_real (nb : ν → Finset ε) (n : ν) : ∃ d : ℝ, d ≠ 0 ∧ deg nb n = (d : EReal) := by
  obtain ⟨c, hc⟩ : IsReal (0 + ∑ _e ∈ nb n, (1 : EReal)) := isReal_zero.add (IsReal.sum _ _ fun _ _ => isReal_one)
  refine ⟨Max.max c 1, ne_of_gt (lt_of_lt_of_le one_pos (le_max_right c 1)), ?_⟩
  unfold deg
  rw [hc, coe_max, EReal.coe_one]

/-- A real number over the clamped in-degree is a real number. -/
theorem div_deg_real (nb : ν → Finset ε) (n : ν) {a : EReal} (ha : IsReal a) : IsReal (Ideal.div a (deg nb n)) := by
  obtain ⟨d, hd0, hd⟩ := deg_real nb n
  rw [hd, Ideal.div_coe hd0]
  exact ha.mul (isReal_coe _)

/-! ## One layer -/

/-- The sum of the features of a node's in-neighbours. -/
def nsum (nb : ν → Finset ε) (src : ε → ν) (X : ν → κ → EReal) (n : ν) (k : κ) : EReal := ∑ e ∈ nb n, X (src e) k

variable [Fintype κ]

/-- One layer: the neighbour mean through `Wl`, plus the bias, plus the node's own features through `Wr`. -/
def conv (nb : ν → Finset ε) (src : ε → ν) (X : ν → κ → EReal) (Wl : κ → γ → EReal) (b : γ → EReal)
    (Wr : κ → γ → EReal) (n : ν) (j : γ) : EReal :=
  (∑ k, Ideal.div (nsum nb src X n k) (deg nb n) * Wl k j) + b j + ∑ k, X n k * Wr k j

/-- The layer with the neighbour sum scaled by the reciprocal of the clamped in-degree is the layer: no finiteness. -/
theorem conv_of_recip (nb : ν → Finset ε) (src : ε → ν) (X : ν → κ → EReal) (Wl : κ → γ → EReal) (b : γ → EReal)
    (Wr : κ → γ → EReal) (n : ν) (j : γ) :
    (∑ k, (nsum nb src X n k * Ideal.div 1 (deg nb n)) * Wl k j) + b j + ∑ k, X n k * Wr k j
      = conv nb src X Wl b Wr n j := by
  unfold conv deg
  simp only [MeanScale.mul_recip_eq_div]

/-- Real features and real weights give real outputs. -/
theorem conv_real (nb : ν → Finset ε) (src : ε → ν) (X : ν → κ → EReal) (Wl : κ → γ → EReal) (b : γ → EReal)
    (Wr : κ → γ → EReal) (hX : ∀ n k, IsReal (X n k)) (hWl : ∀ k j, IsReal (Wl k j)) (hb : ∀ j, IsReal (b j))
    (hWr : ∀ k j, IsReal (Wr k j)) (n : ν) (j : γ) : IsReal (conv nb src X Wl b Wr n j) := by
  unfold conv
  refine ((IsReal.sum _ _ fun k _ => ?_).add (hb j)).add (IsReal.sum _ _ fun k _ => (hX n k).mul (hWr k j))
  exact (div_deg_real nb n (IsReal.sum _ _ fun e _ => hX (src e) k)).mul (hWl k j)

/-- The rectified layer. -/
def hidden (nb : ν → Finset ε) (src : ε → ν) (X : ν → κ → EReal) (Wl : κ → γ → EReal) (b : γ → EReal)
    (Wr : κ → γ → EReal) (n : ν) (j : γ) : EReal := max (conv nb src X Wl b Wr n j) 0

theorem hidden_real (nb : ν → Finset ε) (src : ε → ν) (X : ν → κ → EReal) (Wl : κ → γ → EReal) (b : γ → EReal)
    (Wr : κ → γ → EReal) (hX : ∀ n k, IsReal (X n k)) (hWl : ∀ k j, IsReal (Wl k j)) (hb : ∀ j, IsReal (b j))
    (hWr : ∀ k j, IsReal (Wr k j)) (n : ν) (j : γ) : IsReal (hidden nb src X Wl b Wr n j) :=
  (conv_real nb src X Wl b Wr hX hWl hb hWr n j).max isReal_zero

/-! ## The neighbour mean commutes with a linear map on real features -/

/-- Projecting every neighbour's features through `W` and then taking the mean (by the reciprocal) is taking the mean
    and then projecting, for real features and real weights. -/
theorem mean_of_projected (nb : ν → Finset ε) (src : ε → ν) (H : ν → κ → EReal) (W : κ → γ → EReal)
    (hH : ∀ n k, IsReal (H n k)) (hW : ∀ k j, IsReal (W k j)) (n : ν) (j : γ) :
    (∑ e ∈ nb n, ∑ k, H (src e) k * W k j) * Ideal.div 1 (deg nb n)
      = ∑ k, Ideal.div (nsum nb src H n k) (deg nb n) * W k j := by
  classical
  choose h hh using hH
  choose w hw using hW
  obtain ⟨d, hd0, hd⟩ := deg_real nb n
  simp only [nsum, hd, Ideal.div_coe hd0, hh, hw, one_mul]
  simp only [← EReal.coe_mul, ← Cert.Lib.ERealSum.coe_finset_sum]
  rw [EReal.coe_eq_coe_iff]
  simp only [Finset.sum_mul]
  rw [Finset.sum_comm]
  exact Finset.sum_congr rfl fun k _ => Finset.sum_congr rfl fun e _ => by ring

/-- The second layer with the projection through `Wl` done before the neighbour mean is the second layer, on real
    features and real `Wl`. -/
theorem conv_of_projected (nb : ν → Finset ε) (src : ε → ν) (H : ν → κ → EReal) (Wl : κ → γ → EReal) (b : γ → EReal)
    (Wr : κ → γ → EReal) (hH : ∀ n k, IsReal (H n k)) (hWl : ∀ k j, IsReal (Wl k j)) (n : ν) (j : γ) :
    nsum nb src (fun r j' => ∑ k, H r k * Wl k j') n j * Ideal.div 1 (deg nb n) + b j + ∑ k, H n k * Wr k j
      = conv nb src H Wl b Wr n j := by
  unfold conv
  rw [← mean_of_projected nb src H Wl hH hWl n j]
  rfl

end Sage

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.SageSpec.lean ====
/-
  The two-layer neighbour-mean network at the sizes of this certificate: 100000 nodes, 1000000 edges per layer, features
  128 → 128 → 64, and a row-wise log-softmax at the end.

  An edge list is two columns of one million 32-bit row numbers.  Edge `e` comes into node `n` when its target number,
  read as a signed integer, is `n`; its source node is its source number clamped into the node range (what a gather
  reads).  The node features and weights are arrays of extended reals read at their coordinates.
-/
import proofs.«169007_j60086592471214_2_alg».proof.Proof.SageMath
import proofs.«169007_j60086592471214_2_alg».proof.Proof.LibRowScatter
import Idealize.ShloMosaic.Lib.ValueIdx

noncomputable section

open scoped BigOperators

namespace Sage

open Idealize.ShloMosaic Idealize.ShloMosaic.ValueIdx Idealize.ShloMosaic.RowScatter

/-- A column of one million 32-bit row numbers. -/
abbrev Col := IVec ⟨2, ![1000000, 1]⟩ 32

/-- The edges coming into node `n`: those whose target number is `n`. -/
def nbOf (tcol : Col) (n : Fin 100000) : Finset (Fin 1000000) :=
  Finset.univ.filter fun e : Fin 1000000 => rowNo tcol e = (n.val : Int)

/-- The source node of edge `e`: its source number clamped into the node range. -/
def srcOf (scol : Col) (e : Fin 1000000) : Fin 100000 := clampRow 100000 (by norm_num) scol e

/-- A rank-2 array read at its two coordinates. -/
def mat {a b : ℕ} (x : (⟨2, ![a, b]⟩ : Shape).Idx → EReal) (p : Fin a) (q : Fin b) : EReal := x (ix2 p q)

/-- A rank-1 array read at its coordinate. -/
def vec {a : ℕ} (x : (⟨1, ![a]⟩ : Shape).Idx → EReal) (p : Fin a) : EReal := x (ix1 p)

/-- The hidden features: the first layer, rectified. -/
def hiddenOf (t1 s1 : Col) (x : (⟨2, ![100000, 128]⟩ : Shape).Idx → EReal) (Wl1 : (⟨2, ![128, 128]⟩ : Shape).Idx → EReal)
    (b1 : (⟨1, ![128]⟩ : Shape).Idx → EReal) (Wr1 : (⟨2, ![128, 128]⟩ : Shape).Idx → EReal) :
    Fin 100000 → Fin 128 → EReal :=
  hidden (nbOf t1) (srcOf s1) (mat x) (mat Wl1) (vec b1) (mat Wr1)

/-- The logits: the second layer on the hidden features. -/
def logitsOf (t1 s1 t2 s2 : Col) (x : (⟨2, ![100000, 128]⟩ : Shape).Idx → EReal)
    (Wl1 : (⟨2, ![128, 128]⟩ : Shape).Idx → EReal) (b1 : (⟨1, ![128]⟩ : Shape).Idx → EReal)
    (Wr1 : (⟨2, ![128, 128]⟩ : Shape).Idx → EReal) (Wl2 : (⟨2, ![128, 64]⟩ : Shape).Idx → EReal)
    (b2 : (⟨1, ![64]⟩ : Shape).Idx → EReal) (Wr2 : (⟨2, ![128, 64]⟩ : Shape).Idx → EReal) :
    Fin 100000 → Fin 64 → EReal :=
  conv (nbOf t2) (srcOf s2) (hiddenOf t1 s1 x Wl1 b1 Wr1) (mat Wl2) (vec b2) (mat Wr2)

/-- A row's maximum: the fold of `max` over its 64 entries from −∞. -/
def rowMax (z : Fin 64 → EReal) : EReal := (Finset.univ : Finset (Fin 64)).fold max (⊥ : EReal) z

/-- The log-softmax of a row of 64 logits: shift by the row's maximum, then subtract the logarithm of the sum of the
    exponentials. -/
def logSoftmaxRow (z : Fin 64 → EReal) (j : Fin 64) : EReal :=
  (z j - rowMax z) - Ideal.log (∑ j' : Fin 64, Ideal.exp (z j' - rowMax z))

/-- Entry `(n, j)` of the network's output. -/
def outOf (t1 s1 t2 s2 : Col) (x : (⟨2, ![100000, 128]⟩ : Shape).Idx → EReal)
    (Wl1 : (⟨2, ![128, 128]⟩ : Shape).Idx → EReal) (b1 : (⟨1, ![128]⟩ : Shape).Idx → EReal)
    (Wr1 : (⟨2, ![128, 128]⟩ : Shape).Idx → EReal) (Wl2 : (⟨2, ![128, 64]⟩ : Shape).Idx → EReal)
    (b2 : (⟨1, ![64]⟩ : Shape).Idx → EReal) (Wr2 : (⟨2, ![128, 64]⟩ : Shape).Idx → EReal)
    (n : Fin 100000) (j : Fin 64) : EReal :=
  logSoftmaxRow (logitsOf t1 s1 t2 s2 x Wl1 b1 Wr1 Wl2 b2 Wr2 n) j

/-- The maximum of −∞ and a row's maximum is the row's maximum. -/
theorem max_bot_rowMax (z : Fin 64 → EReal) : max (⊥ : EReal) (rowMax z) = rowMax z := max_eq_right bot_le

/-- The hidden features are real when the first layer's inputs are. -/
theorem hiddenOf_real (t1 s1 : Col) (x : (⟨2, ![100000, 128]⟩ : Shape).Idx → EReal)
    (Wl1 : (⟨2, ![128, 128]⟩ : Shape).Idx → EReal) (b1 : (⟨1, ![128]⟩ : Shape).Idx → EReal)
    (Wr1 : (⟨2, ![128, 128]⟩ : Shape).Idx → EReal) (hx : ∀ i, IsReal (x i)) (hWl1 : ∀ i, IsReal (Wl1 i))
    (hb1 : ∀ i, IsReal (b1 i)) (hWr1 : ∀ i, IsReal (Wr1 i)) (n : Fin 100000) (k : Fin 128) :
    IsReal (hiddenOf t1 s1 x Wl1 b1 Wr1 n k) :=
  hidden_real _ _ _ _ _ _ (fun _ _ => hx _) (fun _ _ => hWl1 _) (fun _ => hb1 _) (fun _ _ => hWr1 _) n k

end Sage

end
-- ==== Proof.KernelBody.lean ====
/-
  The two kernel bodies of the idealized program read at an entry of their output blocks, over the extended reals.

  The first body works on a block of 10000 rows.  With `S` the block of neighbour sums, `r` the column of reciprocal
  clamped in-degrees, `X` the block of node features, it stores
      H p q = max((Σₖ (S p k · r p) · Wl k q) + b q + Σₖ X p k · Wr k q, 0)
  and the projection `P p q = Σₖ H p k · W2 k q`.  The second body, with `S'` the block of summed projections, `r'` the
  reciprocals, `H` the hidden block, forms the logits `L p q = S' p q · r' p + b' q + Σₖ H p k · Wr' k q` and stores their
  row-wise log-softmax `(L p q − M p) − log Σ_{q'} exp(L p q' − M p)`, `M p` the row's maximum.
-/
import proofs.«169007_j60086592471214_2_alg».proof.Proof.Gen.KernelIdeal.Skeleton
import proofs.«169007_j60086592471214_2_alg».proof.Proof.LibPlainMatmul
import proofs.«169007_j60086592471214_2_alg».proof.Proof.LibColumnLayout
import proofs.«169007_j60086592471214_2_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SageBody

open Cert.KernelIdeal Cert.KernelIdeal.Gen Idealize.ShloMosaic Idealize.ShloMosaic.ValueIdx
open Idealize.ShloMosaic.PlainMatmul Idealize.ShloMosaic.ColumnLayout

/-- The two contractions of the bodies are plain matrix products. -/
theorem dot128_eq : dot_S10000x128_S128x128_S10000x128_1_0_0_1_n_n = DotDims.plain 10000 128 128 := rfl
theorem dot64_eq : dot_S10000x128_S128x64_S10000x64_1_0_0_1_n_n = DotDims.plain 10000 128 64 := rfl

/-- The hidden block at an entry. -/
theorem pay1_apply (v0 : Vec Ideal S10000x128 .f32) (v2 : Vec Ideal S10000x1 .f32) (v6 : Vec Ideal S10000x128 .f32)
    (v7 : Vec Ideal S128x128 .f32) (v9 : Vec Ideal S1x128 .f32) (v13 : Vec Ideal S128x128 .f32) (p : Fin 10000) (q : Fin 128) :
    k0_pay1 v0 v2 v6 v7 v9 v13 (ix2 p q)
      = max ((∑ k : Fin 128, (v0 (ix2 p k) * v2 (ix2 p (0 : Fin 1))) * v7 (ix2 k q)) + v9 (ix2 (0 : Fin 1) q)
              + ∑ k : Fin 128, v6 (ix2 p k) * v13 (ix2 k q)) 0 := by
  unfold k0_pay1
  simp only [shapeCast_self]
  rw [maximumf_apply, addf_apply, addf_apply, dot128_eq]
  unfold matmul
  rw [matmul_zero_apply, matmul_zero_apply, broadcastTo_1b_ab_apply, broadcast_apply]
  simp only [mulf_apply, broadcastTo_a1_ab_apply]
  exact congrArg _ Ideal.ofBits_zero_f32

/-- The projected block at an entry: the hidden block through the second layer's left weights. -/
theorem pay2_apply (v0 : Vec Ideal S10000x128 .f32) (v2 : Vec Ideal S10000x1 .f32) (v6 : Vec Ideal S10000x128 .f32)
    (v7 : Vec Ideal S128x128 .f32) (v9 : Vec Ideal S1x128 .f32) (v13 : Vec Ideal S128x128 .f32) (v19 : Vec Ideal S128x64 .f32)
    (p : Fin 10000) (q : Fin 64) :
    k0_pay2 v0 v2 v6 v7 v9 v13 v19 (ix2 p q) = ∑ k : Fin 128, k0_pay1 v0 v2 v6 v7 v9 v13 (ix2 p k) * v19 (ix2 k q) := by
  unfold k0_pay2
  rw [dot64_eq]
  unfold matmul
  rw [matmul_zero_apply]

/-- A block's row-wise log-softmax as the body spells it, at an entry. -/
theorem logSoftmaxBlock_apply {a : ℕ} (s : FVec Ideal ⟨2, ![a, 64]⟩ .f32)
    (h : (⟨2, ![a, 64]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, 64]⟩)
    (m : Fin a) (n : Fin 64) :
    subf (subf s (broadcastTo ⟨2, ![a, 64]⟩
            (shapeCast ⟨2, ![a, 1]⟩ (multiReduction .maximumf [1] ⟨1, ![a]⟩ s 0xFF800000#32 h hφ hmax) hc) hb))
        (broadcastTo ⟨2, ![a, 64]⟩
          (log (shapeCast ⟨2, ![a, 1]⟩
            (multiReduction .add [1] ⟨1, ![a]⟩
              (exp (subf s (broadcastTo ⟨2, ![a, 64]⟩
                (shapeCast ⟨2, ![a, 1]⟩ (multiReduction .maximumf [1] ⟨1, ![a]⟩ s 0xFF800000#32 h hφ hmax) hc) hb)))
              0x00000000#32 h hφ' hadd) hc)) hb)
        (ix2 m n)
      = Sage.logSoftmaxRow (fun n' => s (ix2 m n')) n := by
  have hsh : ∀ n' : Fin 64,
      subf s (broadcastTo ⟨2, ![a, 64]⟩
          (shapeCast ⟨2, ![a, 1]⟩ (multiReduction .maximumf [1] ⟨1, ![a]⟩ s 0xFF800000#32 h hφ hmax) hc) hb) (ix2 m n')
        = s (ix2 m n') - Sage.rowMax (fun n'' => s (ix2 m n'')) := by
    intro n'
    rw [subf_apply, keepdims_apply, rowMax_apply]
    rfl
  have hex : ∀ n' : Fin 64,
      exp (subf s (broadcastTo ⟨2, ![a, 64]⟩
          (shapeCast ⟨2, ![a, 1]⟩ (multiReduction .maximumf [1] ⟨1, ![a]⟩ s 0xFF800000#32 h hφ hmax) hc) hb)) (ix2 m n')
        = Ideal.exp (s (ix2 m n') - Sage.rowMax (fun n'' => s (ix2 m n''))) := by
    intro n'
    show Ideal.exp (subf s (broadcastTo ⟨2, ![a, 64]⟩
          (shapeCast ⟨2, ![a, 1]⟩ (multiReduction .maximumf [1] ⟨1, ![a]⟩ s 0xFF800000#32 h hφ hmax) hc) hb) (ix2 m n')) = _
    rw [hsh n']
  rw [subf_apply, hsh n, broadcastTo_a1_ab_apply]
  show _ - Ideal.log (shapeCast ⟨2, ![a, 1]⟩ _ hc (ix2 m (0 : Fin 1))) = _
  rw [shapeCast_a_a1_apply, rowSum_apply]
  unfold Sage.logSoftmaxRow
  exact congrArg (fun z => _ - Ideal.log z) (Finset.sum_congr rfl fun n' _ => hex n')

/-- The second body's stored block at an entry: the log-softmax of the row of logits. -/
theorem pay_out_apply (v0 : Vec Ideal S10000x64 .f32) (v2 : Vec Ideal S10000x1 .f32) (v6 : Vec Ideal S1x64 .f32)
    (v10 : Vec Ideal S10000x128 .f32) (v12 : Vec Ideal S128x64 .f32) (p : Fin 10000) (q : Fin 64) :
    k1_pay1 v0 v2 v6 v10 v12 (ix2 p q)
      = Sage.logSoftmaxRow (fun q' => v0 (ix2 p q') * v2 (ix2 p (0 : Fin 1)) + v6 (ix2 (0 : Fin 1) q')
          + ∑ k : Fin 128, v10 (ix2 p k) * v12 (ix2 k q')) q := by
  unfold k1_pay1
  simp only [shapeCast_self]
  refine (logSoftmaxBlock_apply _ _ _ _ _ _ _ _ p q).trans ?_
  congr 1
  funext q'
  rw [addf_apply, addf_apply, mulf_apply, broadcastTo_a1_ab_apply, broadcastTo_1b_ab_apply, dot64_eq]
  unfold matmul
  rw [matmul_zero_apply]

end Cert.KernelIdeal.SageBody

end
-- ==== Proof.KernelRegion0.lean ====
/-
  Region 0 — the first layer's kernel — read as whole arrays.

  The region runs its body at ten grid points; point `t` reads rows `t · 10000 … t · 10000 + 9999` of the neighbour sums,
  of the reciprocal clamped in-degrees and of the node features, and the whole of the weight arrays and of the bias row,
  and writes back the same rows of the hidden array and of the projected array.  Row by row the two outputs are one
  function of the region's input arrays, whatever those arrays hold when the region is entered, and the ten row blocks
  cover the arrays: so after the region the hidden array holds the rectified first layer of its inputs at every entry
  and the projected array its product with the second layer's left weights.
-/
import proofs.«169007_j60086592471214_2_alg».proof.Proof.PatchedKernelIdealFrame
import proofs.«169007_j60086592471214_2_alg».proof.Proof.KernelBody

set_option maxRecDepth 16384

noncomputable section

open scoped BigOperators

namespace Cert.KernelIdeal.SageRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `t · 10000 + p` of the array. -/
def rowOf (t : Fin 10) (p : Fin 10000) : Fin 100000 := ⟨t.val * 10000 + p.val, by have := t.isLt; have := p.isLt; omega⟩

/-! ## The printed index maps over the ten grid points -/

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_7 : ∀ t : Fin cfg0.N, win0_7.index t (0 : Fin 2) = t.val ∧ win0_7.index t (1 : Fin 2) = 0 :=
  (by decide +kernel : ∀ t : Fin grid0.N, _)

theorem idx0_8 : ∀ t : Fin cfg0.N, win0_8.index t (0 : Fin 2) = t.val ∧ win0_8.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

/-! ## The input blocks read where the arrays hold them -/

theorem read0_0 (c : Dev nD) (t : Fin cfg0.N) (p : Fin 10000) (k : Fin 128) :
    iblk0 V c 0 t (ix2 p k) = V c main_v17 (ix2 (rowOf t p) k) := by
  have e0 := (idx0_0 t).1
  have e1 := (idx0_0 t).2
  show V c main_v17 (((cfg0.win 0).blk t).view.emb (ix2 p k)) = V c main_v17 (ix2 (rowOf t p) k)
  refine congrArg (V c main_v17) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

theorem read0_1 (c : Dev nD) (t : Fin cfg0.N) (p : Fin 10000) (k : Fin 1) :
    iblk0 V c 1 t (ix2 p k) = V c main_v26 (ix2 (rowOf t p) k) := by
  have e0 := (idx0_1 t).1
  have e1 := (idx0_1 t).2
  show V c main_v26 (((cfg0.win 1).blk t).view.emb (ix2 p k)) = V c main_v26 (ix2 (rowOf t p) k)
  refine congrArg (V c main_v26) (funext fun a => Fin.ext ?_)
  match a with
  | ⟨0, _⟩ => show win0_1.index t (0 : Fin 2) * 10000 + 1 * p.val = t.val * 10000 + p.val; omega
  | ⟨1, _⟩ => show win0_1.index t (1 : Fin 2) * 1 + 1 * k.val = k.val; omega

theorem read0_2 (c : Dev nD) (t : Fin cfg0.N) (p : Fin 10000) (k : Fin 128) :
    iblk0 V c 2 t (ix2 p k) = V c main_arg0 (ix2 (rowOf t p) k) := by
  have e0 := (idx0_2 t).1
  have e1 := (idx0_2 t).2
  show V c main_arg0 (((cfg0.win 2).blk t).view.emb (ix2 p k)) = V c main_arg0 (ix2 (rowOf t p) k)
  refine congrArg (V c main_arg0) (funext fun a => Fin.ext ?_)
  match a with
  | ⟨0, _⟩ => show win0_2.index t (0 : Fin 2) * 10000 + 1 * p.val = t.val * 10000 + p.val; omega
  | ⟨1, _⟩ => show win0_2.index t (1 : Fin 2) * 128 + 1 * k.val = k.val; omega

theorem read0_3 (c : Dev nD) (t : Fin cfg0.N) (p : Fin 128) (k : Fin 128) :
    iblk0 V c 3 t (ix2 p k) = V c main_arg3 (ix2 p k) := by
  have e0 := (idx0_3 t).1
  have e1 := (idx0_3 t).2
  show V c main_arg3 (((cfg0.win 3).blk t).view.emb (ix2 p k)) = V c main_arg3 (ix2 p k)
  refine congrArg (V c main_arg3) (funext fun a => Fin.ext ?_)
  match a with
  | ⟨0, _⟩ => show win0_3.index t (0 : Fin 2) * 128 + 1 * p.val = p.val; omega
  | ⟨1, _⟩ => show win0_3.index t (1 : Fin 2) * 128 + 1 * k.val = k.val; omega

theorem read0_4 (c : Dev nD) (t : Fin cfg0.N) (p : Fin 1) (k : Fin 128) :
    iblk0 V c 4 t (ix2 p k) = V c main_v27 (ix2 p k) := by
  have e0 := (idx0_4 t).1
  have e1 := (idx0_4 t).2
  show V c main_v27 (((cfg0.win 4).blk t).view.emb (ix2 p k)) = V c main_v27 (ix2 p k)
  refine congrArg (V c main_v27) (funext fun a => Fin.ext ?_)
  match a with
  | ⟨0, _⟩ => show win0_4.index t (0 : Fin 2) * 1 + 1 * p.val = p.val; omega
  | ⟨1, _⟩ => show win0_4.index t (1 : Fin 2) * 128 + 1 * k.val = k.val; omega

theorem read0_5 (c : Dev nD) (t : Fin cfg0.N) (p : Fin 128) (k : Fin 128) :
    iblk0 V c 5 t (ix2 p k) = V c main_arg5 (ix2 p k) := by
  have e0 := (idx0_5 t).1
  have e1 := (idx0_5 t).2
  show V c main_arg5 (((cfg0.win 5).blk t).view.emb (ix2 p k)) = V c main_arg5 (ix2 p k)
  refine congrArg (V c main_arg5) (funext fun a => Fin.ext ?_)
  match a with
  | ⟨0, _⟩ => show win0_5.index t (0 : Fin 2) * 128 + 1 * p.val = p.val; omega
  | ⟨1, _⟩ => show win0_5.index t (1 : Fin 2) * 128 + 1 * k.val = k.val; omega

theorem read0_6 (c : Dev nD) (t : Fin cfg0.N) (p : Fin 128) (k : Fin 64) :
    iblk0 V c 6 t (ix2 p k) = V c main_arg6 (ix2 p k) := by
  have e0 := (idx0_6 t).1
  have e1 := (idx0_6 t).2
  show V c main_arg6 (((cfg0.win 6).blk t).view.emb (ix2 p k)) = V c main_arg6 (ix2 p k)
  refine congrArg (V c main_arg6) (funext fun a => Fin.ext ?_)
  match a with
  | ⟨0, _⟩ => show win0_6.index t (0 : Fin 2) * 128 + 1 * p.val = p.val; omega
  | ⟨1, _⟩ => show win0_6.index t (1 : Fin 2) * 64 + 1 * k.val = k.val; omega

/-! ## The hidden array -/

/-- The hidden features of node `n` from the region's input arrays: the neighbour sums, the reciprocal clamped
    in-degrees, the node features, the two weight arrays and the bias row. -/
def hidFn (A0 : S100000x128.Idx → EReal) (A1 : S100000x1.Idx → EReal) (A2 : S100000x128.Idx → EReal)
    (A3 : S128x128.Idx → EReal) (A4 : S1x128.Idx → EReal) (A5 : S128x128.Idx → EReal) (n : Fin 100000) (q : Fin 128) : EReal :=
  max ((∑ k : Fin 128, (A0 (ix2 n k) * A1 (ix2 n (0 : Fin 1))) * A3 (ix2 k q)) + A4 (ix2 (0 : Fin 1) q)
    + ∑ k : Fin 128, A2 (ix2 n k) * A5 (ix2 k q)) 0

/-- The same as an array. -/
def hidArr (A0 : S100000x128.Idx → EReal) (A1 : S100000x1.Idx → EReal) (A2 : S100000x128.Idx → EReal)
    (A3 : S128x128.Idx → EReal) (A4 : S1x128.Idx → EReal) (A5 : S128x128.Idx → EReal) : S100000x128.Idx → EReal :=
  fun i => hidFn A0 A1 A2 A3 A4 A5 ⟨(i 0).val, idx2_lt0 i⟩ ⟨(i 1).val, idx2_lt1 i⟩

theorem hidArr_apply (A0 : S100000x128.Idx → EReal) (A1 : S100000x1.Idx → EReal) (A2 : S100000x128.Idx → EReal)
    (A3 : S128x128.Idx → EReal) (A4 : S1x128.Idx → EReal) (A5 : S128x128.Idx → EReal) (n : Fin 100000) (q : Fin 128) :
    hidArr A0 A1 A2 A3 A4 A5 (ix2 n q) = hidFn A0 A1 A2 A3 A4 A5 n q := rfl

/-- Entry `(p, q)` of block `t` of this output array is entry `(t · 10000 + p, q)` of the array. -/
theorem emb0_7 (t : Fin cfg0.N) (p : Fin 10000) (q : Fin 128) :
    ((cfg0.win 7).blk t).view.emb (ix2 p q) = ix2 (rowOf t p) q := by
  have e0 := (idx0_7 t).1
  have e1 := (idx0_7 t).2
  refine funext fun a => Fin.ext ?_
  match a with
  | ⟨0, _⟩ => show win0_7.index t (0 : Fin 2) * 10000 + 1 * p.val = t.val * 10000 + p.val; omega
  | ⟨1, _⟩ => show win0_7.index t (1 : Fin 2) * 128 + 1 * q.val = q.val; omega

/-- An entry is in block `t` of this output array when each coordinate is in the block's range on its axis. -/
theorem mem_blk0_7 (t : Fin cfg0.N) (i : S100000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v28_0).slice (win0_7.rect t)).set ↔ _
  rw [View.set_slice_whole, Rect.mem_set_unit]
  exact Iff.rfl

/-- The ten row blocks cover this output array: row `r` is in block `r / 10000`. -/
theorem covered0_7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 10000 < 10 := by omega
  have e0 := (idx0_7 ⟨(i 0).val / 10000, ht⟩).1
  have e1 := (idx0_7 ⟨(i 0).val / 10000, ht⟩).2
  refine ⟨⟨(i 0).val / 10000, ht⟩, flush0_7 _, ?_⟩
  rw [mem_blk0_7]
  intro a
  match a with
  | ⟨0, _⟩ =>
    show win0_7.index ⟨(i 0).val / 10000, ht⟩ (0 : Fin 2) * 10000 ≤ (i 0).val
      ∧ (i 0).val < win0_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_7.index ⟨(i 0).val / 10000, ht⟩ (1 : Fin 2) * 128 ≤ (i 1).val
      ∧ (i 1).val < win0_7.index ⟨(i 0).val / 10000, ht⟩ (1 : Fin 2) * 128 + 128
    omega

/-- What point `t` writes back to the hidden array is block `t` of the hidden features of the input arrays. -/
theorem flushed0_7_eq (c : Dev nD) (t : Fin cfg0.N) :
    (dat0 V c).flushed 7 t = ((cfg0.win 7).blk t).view.read (Elt Ideal)
      (hidArr (V c main_v17) (V c main_v26) (V c main_arg0) (V c main_arg3) (V c main_v27) (V c main_arg5)) := by
  show (cfg0.win 7).cut (grid0.coords t) ((dat0 V c).after 7 t) = _
  rw [after0_7]
  unfold out0_7
  rw [View.canon_unit_zero hz]
  simp only [View.ld_unit_zero (S := S10000x128) hz, View.ld_unit_zero (S := S10000x1) hz, View.ld_unit_zero (S := S128x128) hz,
    View.ld_unit_zero (S := S1x128) hz]
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = hidArr (V c main_v17) (V c main_v26) (V c main_arg0) (V c main_arg3) (V c main_v27) (V c main_arg5)
        (((cfg0.win 7).blk t).view.emb (ix2 p q))
  refine (SageBody.pay1_apply _ _ _ _ _ _ p q).trans ?_
  rw [emb0_7, hidArr_apply]
  unfold hidFn
  simp only [read0_0, read0_1, read0_2, read0_3, read0_4, read0_5]

/-- After the region the hidden array holds the hidden features of the region's input arrays. -/
theorem final0_7 (c : Dev nD) :
    (dat0 V c).arrAt 7 cfg0.N
      = hidArr (V c main_v17) (V c main_v26) (V c main_arg0) (V c main_arg3) (V c main_v27) (V c main_arg5) :=
  (dat0 V c).arrAt_eq_of_cover 7 _ (fun t _ => flushed0_7_eq V c t) covered0_7

/-! ## The projected array -/

/-- The hidden features of node `n` through the second layer's left weights. -/
def projFn (A0 : S100000x128.Idx → EReal) (A1 : S100000x1.Idx → EReal) (A2 : S100000x128.Idx → EReal)
    (A3 : S128x128.Idx → EReal) (A4 : S1x128.Idx → EReal) (A5 : S128x128.Idx → EReal) (A6 : S128x64.Idx → EReal)
    (n : Fin 100000) (q : Fin 64) : EReal :=
  ∑ k : Fin 128, hidFn A0 A1 A2 A3 A4 A5 n k * A6 (ix2 k q)

/-- The same as an array. -/
def projArr (A0 : S100000x128.Idx → EReal) (A1 : S100000x1.Idx → EReal) (A2 : S100000x128.Idx → EReal)
    (A3 : S128x128.Idx → EReal) (A4 : S1x128.Idx → EReal) (A5 : S128x128.Idx → EReal) (A6 : S128x64.Idx → EReal) :
    S100000x64.Idx → EReal :=
  fun i => projFn A0 A1 A2 A3 A4 A5 A6 ⟨(i 0).val, idx2_lt0 i⟩ ⟨(i 1).val, idx2_lt1 i⟩

theorem projArr_apply (A0 : S100000x128.Idx → EReal) (A1 : S100000x1.Idx → EReal) (A2 : S100000x128.Idx → EReal)
    (A3 : S128x128.Idx → EReal) (A4 : S1x128.Idx → EReal) (A5 : S128x128.Idx → EReal) (A6 : S128x64.Idx → EReal)
    (n : Fin 100000) (q : Fin 64) :
    projArr A0 A1 A2 A3 A4 A5 A6 (ix2 n q) = projFn A0 A1 A2 A3 A4 A5 A6 n q := rfl

/-- Entry `(p, q)` of block `t` of this output array is entry `(t · 10000 + p, q)` of the array. -/
theorem emb0_8 (t : Fin cfg0.N) (p : Fin 10000) (q : Fin 64) :
    ((cfg0.win 8).blk t).view.emb (ix2 p q) = ix2 (rowOf t p) q := by
  have e0 := (idx0_8 t).1
  have e1 := (idx0_8 t).2
  refine funext fun a => Fin.ext ?_
  match a with
  | ⟨0, _⟩ => show win0_8.index t (0 : Fin 2) * 10000 + 1 * p.val = t.val * 10000 + p.val; omega
  | ⟨1, _⟩ => show win0_8.index t (1 : Fin 2) * 64 + 1 * q.val = q.val; omega

/-- An entry is in block `t` of this output array when each coordinate is in the block's range on its axis. -/
theorem mem_blk0_8 (t : Fin cfg0.N) (i : S100000x64.Idx) :
    i ∈ ((cfg0.win 8).blk t).view.set ↔ ∀ a : Fin 2, win0_8.index t a * S10000x64.size a ≤ (i a).val
      ∧ (i a).val < win0_8.index t a * S10000x64.size a + S10000x64.size a := by
  show i ∈ ((View.whole main_v28_1).slice (win0_8.rect t)).set ↔ _
  rw [View.set_slice_whole, Rect.mem_set_unit]
  exact Iff.rfl

/-- The ten row blocks cover this output array: row `r` is in block `r / 10000`. -/
theorem covered0_8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have ht : (i 0).val / 10000 < 10 := by omega
  have e0 := (idx0_8 ⟨(i 0).val / 10000, ht⟩).1
  have e1 := (idx0_8 ⟨(i 0).val / 10000, ht⟩).2
  refine ⟨⟨(i 0).val / 10000, ht⟩, flush0_8 _, ?_⟩
  rw [mem_blk0_8]
  intro a
  match a with
  | ⟨0, _⟩ =>
    show win0_8.index ⟨(i 0).val / 10000, ht⟩ (0 : Fin 2) * 10000 ≤ (i 0).val
      ∧ (i 0).val < win0_8.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_8.index ⟨(i 0).val / 10000, ht⟩ (1 : Fin 2) * 64 ≤ (i 1).val
      ∧ (i 1).val < win0_8.index ⟨(i 0).val / 10000, ht⟩ (1 : Fin 2) * 64 + 64
    omega

/-- What point `t` writes back to the projected array is block `t` of the projected features of the input arrays. -/
theorem flushed0_8_eq (c : Dev nD) (t : Fin cfg0.N) :
    (dat0 V c).flushed 8 t = ((cfg0.win 8).blk t).view.read (Elt Ideal)
      (projArr (V c main_v17) (V c main_v26) (V c main_arg0) (V c main_arg3) (V c main_v27) (V c main_arg5) (V c main_arg6)) := by
  show (cfg0.win 8).cut (grid0.coords t) ((dat0 V c).after 8 t) = _
  rw [after0_8]
  unfold out0_8
  rw [View.canon_unit_zero hz]
  simp only [View.ld_unit_zero (S := S10000x128) hz, View.ld_unit_zero (S := S10000x1) hz, View.ld_unit_zero (S := S128x128) hz,
    View.ld_unit_zero (S := S1x128) hz, View.ld_unit_zero (S := S128x64) hz]
  funext j
  obtain ⟨p, q, rfl⟩ : ∃ (p : Fin 10000) (q : Fin 64), j = ix2 p q := ⟨j 0, j 1, eq_ix2 j⟩
  show k0_pay2 (iblk0 V c 0 t) (iblk0 V c 1 t) (iblk0 V c 2 t) (iblk0 V c 3 t) (iblk0 V c 4 t) (iblk0 V c 5 t) (iblk0 V c 6 t) (ix2 p q)
    = projArr (V c main_v17) (V c main_v26) (V c main_arg0) (V c main_arg3) (V c main_v27) (V c main_arg5) (V c main_arg6)
        (((cfg0.win 8).blk t).view.emb (ix2 p q))
  refine (SageBody.pay2_apply _ _ _ _ _ _ _ p q).trans ?_
  rw [emb0_8, projArr_apply]
  unfold projFn
  refine Finset.sum_congr rfl fun k _ => ?_
  rw [read0_6]
  refine congrArg (· * _) ?_
  refine (SageBody.pay1_apply _ _ _ _ _ _ p k).trans ?_
  unfold hidFn
  simp only [read0_0, read0_1, read0_2, read0_3, read0_4, read0_5]

/-- After the region the projected array holds the projected hidden features of the region's input arrays. -/
theorem final0_8 (c : Dev nD) :
    (dat0 V c).arrAt 8 cfg0.N
      = projArr (V c main_v17) (V c main_v26) (V c main_arg0) (V c main_arg3) (V c main_v27) (V c main_arg5) (V c main_arg6) :=
  (dat0 V c).arrAt_eq_of_cover 8 _ (fun t _ => flushed0_8_eq V c t) covered0_8

end Cert.KernelIdeal.SageRegion

end
-- ==== Proof.KernelRegion1.lean ====
/-
  Region 1 — the second layer's kernel — read as a whole array.

  Point `t` of its ten grid points reads rows `t · 10000 … t · 10000 + 9999` of the summed projections, of the reciprocal
  clamped in-degrees and of the hidden array, and the whole of the right weights and of the bias row, and writes back
  the same rows of the result: the row-wise log-softmax of the logits.  Row by row the result is one function of the
  region's input arrays, whatever they hold when the region is entered, and the ten row blocks cover the result array.
-/
import proofs.«169007_j60086592471214_2_alg».proof.Proof.PatchedKernelIdealFrame
import proofs.«169007_j60086592471214_2_alg».proof.Proof.KernelBody

set_option maxRecDepth 16384

noncomputable section

open scoped BigOperators

namespace Cert.KernelIdeal.SageRegion1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `t · 10000 + p` of the array. -/
def rowOf (t : Fin 10) (p : Fin 10000) : Fin 100000 := ⟨t.val * 10000 + p.val, by have := t.isLt; have := p.isLt; omega⟩

/-! ## The printed index maps over the ten grid points -/

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_5 : ∀ t : Fin cfg1.N, win1_5.index t (0 : Fin 2) = t.val ∧ win1_5.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

/-! ## The input blocks read where the arrays hold them -/

theorem read1_0 (c : Dev nD) (t : Fin cfg1.N) (p : Fin 10000) (k : Fin 64) :
    iblk1 V c 0 t (ix2 p k) = V c main_v38 (ix2 (rowOf t p) k) := by
  have e0 := (idx1_0 t).1
  have e1 := (idx1_0 t).2
  show V c main_v38 (((cfg1.win 0).blk t).view.emb (ix2 p k)) = V c main_v38 (ix2 (rowOf t p) k)
  refine congrArg (V c main_v38) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

theorem read1_1 (c : Dev nD) (t : Fin cfg1.N) (p : Fin 10000) (k : Fin 1) :
    iblk1 V c 1 t (ix2 p k) = V c main_v47 (ix2 (rowOf t p) k) := by
  have e0 := (idx1_1 t).1
  have e1 := (idx1_1 t).2
  show V c main_v47 (((cfg1.win 1).blk t).view.emb (ix2 p k)) = V c main_v47 (ix2 (rowOf t p) k)
  refine congrArg (V c main_v47) (funext fun a => Fin.ext ?_)
  match a with
  | ⟨0, _⟩ => show win1_1.index t (0 : Fin 2) * 10000 + 1 * p.val = t.val * 10000 + p.val; omega
  | ⟨1, _⟩ => show win1_1.index t (1 : Fin 2) * 1 + 1 * k.val = k.val; omega

theorem read1_2 (c : Dev nD) (t : Fin cfg1.N) (p : Fin 10000) (k : Fin 128) :
    iblk1 V c 2 t (ix2 p k) = V c main_v28_0 (ix2 (rowOf t p) k) := by
  have e0 := (idx1_2 t).1
  have e1 := (idx1_2 t).2
  show V c main_v28_0 (((cfg1.win 2).blk t).view.emb (ix2 p k)) = V c main_v28_0 (ix2 (rowOf t p) k)
  refine congrArg (V c main_v28_0) (funext fun a => Fin.ext ?_)
  match a with
  | ⟨0, _⟩ => show win1_2.index t (0 : Fin 2) * 10000 + 1 * p.val = t.val * 10000 + p.val; omega
  | ⟨1, _⟩ => show win1_2.index t (1 : Fin 2) * 128 + 1 * k.val = k.val; omega

theorem read1_3 (c : Dev nD) (t : Fin cfg1.N) (p : Fin 128) (k : Fin 64) :
    iblk1 V c 3 t (ix2 p k) = V c main_arg8 (ix2 p k) := by
  have e0 := (idx1_3 t).1
  have e1 := (idx1_3 t).2
  show V c main_arg8 (((cfg1.win 3).blk t).view.emb (ix2 p k)) = V c main_arg8 (ix2 p k)
  refine congrArg (V c main_arg8) (funext fun a => Fin.ext ?_)
  match a with
  | ⟨0, _⟩ => show win1_3.index t (0 : Fin 2) * 128 + 1 * p.val = p.val; omega
  | ⟨1, _⟩ => show win1_3.index t (1 : Fin 2) * 64 + 1 * k.val = k.val; omega

theorem read1_4 (c : Dev nD) (t : Fin cfg1.N) (p : Fin 1) (k : Fin 64) :
    iblk1 V c 4 t (ix2 p k) = V c main_v48 (ix2 p k) := by
  have e0 := (idx1_4 t).1
  have e1 := (idx1_4 t).2
  show V c main_v48 (((cfg1.win 4).blk t).view.emb (ix2 p k)) = V c main_v48 (ix2 p k)
  refine congrArg (V c main_v48) (funext fun a => Fin.ext ?_)
  match a with
  | ⟨0, _⟩ => show win1_4.index t (0 : Fin 2) * 1 + 1 * p.val = p.val; omega
  | ⟨1, _⟩ => show win1_4.index t (1 : Fin 2) * 64 + 1 * k.val = k.val; omega

/-! ## The result array -/

/-- Entry `(n, q)` of the result from the region's input arrays: the summed projections, the reciprocal clamped
    in-degrees, the hidden array, the right weights and the bias row. -/
def outFn (B0 : S100000x64.Idx → EReal) (B1 : S100000x1.Idx → EReal) (B2 : S100000x128.Idx → EReal)
    (B3 : S128x64.Idx → EReal) (B4 : S1x64.Idx → EReal) (n : Fin 100000) (q : Fin 64) : EReal :=
  Sage.logSoftmaxRow (fun q' => B0 (ix2 n q') * B1 (ix2 n (0 : Fin 1)) + B4 (ix2 (0 : Fin 1) q')
    + ∑ k : Fin 128, B2 (ix2 n k) * B3 (ix2 k q')) q

/-- The same as an array. -/
def outArr (B0 : S100000x64.Idx → EReal) (B1 : S100000x1.Idx → EReal) (B2 : S100000x128.Idx → EReal)
    (B3 : S128x64.Idx → EReal) (B4 : S1x64.Idx → EReal) : S100000x64.Idx → EReal :=
  fun i => outFn B0 B1 B2 B3 B4 ⟨(i 0).val, idx2_lt0 i⟩ ⟨(i 1).val, idx2_lt1 i⟩

theorem outArr_apply (B0 : S100000x64.Idx → EReal) (B1 : S100000x1.Idx → EReal) (B2 : S100000x128.Idx → EReal)
    (B3 : S128x64.Idx → EReal) (B4 : S1x64.Idx → EReal) (n : Fin 100000) (q : Fin 64) :
    outArr B0 B1 B2 B3 B4 (ix2 n q) = outFn B0 B1 B2 B3 B4 n q := rfl

/-- Entry `(p, q)` of block `t` of this output array is entry `(t · 10000 + p, q)` of the array. -/
theorem emb1_5 (t : Fin cfg1.N) (p : Fin 10000) (q : Fin 64) :
    ((cfg1.win 5).blk t).view.emb (ix2 p q) = ix2 (rowOf t p) q := by
  have e0 := (idx1_5 t).1
  have e1 := (idx1_5 t).2
  refine funext fun a => Fin.ext ?_
  match a with
  | ⟨0, _⟩ => show win1_5.index t (0 : Fin 2) * 10000 + 1 * p.val = t.val * 10000 + p.val; omega
  | ⟨1, _⟩ => show win1_5.index t (1 : Fin 2) * 64 + 1 * q.val = q.val; omega

/-- An entry is in block `t` of this output array when each coordinate is in the block's range on its axis. -/
theorem mem_blk1_5 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v49).slice (win1_5.rect t)).set ↔ _
  rw [View.set_slice_whole, Rect.mem_set_unit]
  exact Iff.rfl

/-- The ten row blocks cover this output array: row `r` is in block `r / 10000`. -/
theorem covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 10000 < 10 := by omega
  have e0 := (idx1_5 ⟨(i 0).val / 10000, ht⟩).1
  have e1 := (idx1_5 ⟨(i 0).val / 10000, ht⟩).2
  refine ⟨⟨(i 0).val / 10000, ht⟩, flush1_5 _, ?_⟩
  rw [mem_blk1_5]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    omega

/-- What point `t` writes back to the result is block `t` of the result function of the input arrays. -/
theorem flushed1_5_eq (c : Dev nD) (t : Fin cfg1.N) :
    (dat1 V c).flushed 5 t = ((cfg1.win 5).blk t).view.read (Elt Ideal)
      (outArr (V c main_v38) (V c main_v47) (V c main_v28_0) (V c main_arg8) (V c main_v48)) := by
  show (cfg1.win 5).cut (grid1.coords t) ((dat1 V c).after 5 t) = _
  rw [after1_5]
  unfold out1_5
  rw [View.canon_unit_zero hz]
  simp only [View.ld_unit_zero (S := S10000x64) hz, View.ld_unit_zero (S := S10000x1) hz, View.ld_unit_zero (S := S10000x128) hz,
    View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 4 t) (iblk1 V c 2 t) (iblk1 V c 3 t) (ix2 p q)
    = outArr (V c main_v38) (V c main_v47) (V c main_v28_0) (V c main_arg8) (V c main_v48)
        (((cfg1.win 5).blk t).view.emb (ix2 p q))
  refine (SageBody.pay_out_apply _ _ _ _ _ p q).trans ?_
  rw [emb1_5, outArr_apply]
  unfold outFn
  simp only [read1_0, read1_1, read1_2, read1_3, read1_4]

/-- After the region the result array holds the result function of the region's input arrays. -/
theorem final1_5 (c : Dev nD) :
    (dat1 V c).arrAt 5 cfg1.N = outArr (V c main_v38) (V c main_v47) (V c main_v28_0) (V c main_arg8) (V c main_v48) :=
  (dat1 V c).arrAt_eq_of_cover 5 _ (fun t _ => flushed1_5_eq V c t) covered1_5

end Cert.KernelIdeal.SageRegion1

end
-- ==== Proof.KernelHost.lean ====
/-
  The host operations of the idealized kernel program, read as functions of the argument arrays.

  Before the first region the program slices the two edge lists into their source and target rows, wraps negative source
  numbers, gathers the node features at the sources and scatter-adds them at the targets, counts the in-edges of every
  node by scatter-adding ones, clamps the count below at one and takes its reciprocal.  Between the two regions it does
  the same with the second edge list and the projected array the first region wrote.  Each buffer a region reads is
  named here as a term of the argument arrays (and, for the second region, of the first region's two output arrays).
-/
import proofs.«169007_j60086592471214_2_alg».proof.Proof.KernelRegion0
import proofs.«169007_j60086592471214_2_alg».proof.Proof.KernelRegion1
import Idealize.ShloMosaic.PureOps.Ideal
import Idealize.ShloMosaic.Lib.StableHlo.Run

set_option maxRecDepth 16384

noncomputable section

namespace Cert.KernelIdeal.SageHost

open Cert.KernelIdeal Cert.KernelIdeal.Gen Idealize.ShloMosaic Idealize.ShloMosaic.TcCoe Idealize.SL.Sem
open Idealize.ShloMosaic.StableHlo

/-! ## The edge columns and the two aggregates, as terms -/

/-- The target column of an edge list: its second row as a column. -/
def tcolOf (x : IVec S2x1000000 32) : IVec S1000000x1 32 :=
  broadcastInDim S1000000x1 ![0] bcast_S1000000_S1000000x1_0
    (shapeCast S1000000 (extractStridedSlice S1x1000000 ![1, 0] x slices_S2x1000000_S1x1000000_1_0) shapeCasts_S1x1000000_S1000000)

/-- The source numbers of an edge list: its first row. -/
def srcVec (x : IVec S2x1000000 32) : IVec S1000000 32 :=
  shapeCast S1000000 (extractStridedSlice S1x1000000 ![0, 0] x slices_S2x1000000_S1x1000000_0_0) shapeCasts_S1x1000000_S1000000

/-- The source column: the source numbers with the node count added to the negative ones, as a column. -/
def scolOf (x : IVec S2x1000000 32) : IVec S1000000x1 32 :=
  broadcastInDim S1000000x1 ![0] bcast_S1000000_S1000000x1_0
    (select (cmpi .slt (srcVec x) (broadcastInDim S1000000 ![] bcast_S_S1000000 (constantI S_ 32 0#32)))
      (addi (srcVec x) (broadcastInDim S1000000 ![] bcast_S_S1000000 (constantI S_ 32 100000#32))) (srcVec x))

/-- The neighbour sums of 128-wide features. -/
def msum128 (x : FVec Ideal S100000x128 .f32) (e : IVec S2x1000000 32) : FVec Ideal S100000x128 .f32 :=
  Host.scatterAdd scatter_S100000x128_S1000000x1_S1000000x128_1_0_0_1
    (broadcastInDim S100000x128 ![] bcast_S_S100000x128 (constant (F := Ideal) S_ .f32 0x00000000#32)) (tcolOf e)
    (Host.gather gather_S100000x128_S1000000x1_S1000000x128_1_0_n_n_0_1_1128 x (scolOf e))

/-- The neighbour sums of 64-wide features. -/
def msum64 (x : FVec Ideal S100000x64 .f32) (e : IVec S2x1000000 32) : FVec Ideal S100000x64 .f32 :=
  Host.scatterAdd scatter_S100000x64_S1000000x1_S1000000x64_1_0_0_1
    (broadcastInDim S100000x64 ![] bcast_S_S100000x64 (constant (F := Ideal) S_ .f32 0x00000000#32)) (tcolOf e)
    (Host.gather gather_S100000x64_S1000000x1_S1000000x64_1_0_n_n_0_1_164 x (scolOf e))

/-- The in-degree of every node: ones scatter-added at the targets. -/
def cntOf (e : IVec S2x1000000 32) : FVec Ideal S100000 .f32 :=
  Host.scatterAdd scatter_S100000_S1000000x1_S1000000_n_0_0_1
    (broadcastInDim S100000 ![] bcast_S_S100000 (constant (F := Ideal) S_ .f32 0x00000000#32)) (tcolOf e)
    (broadcastInDim S1000000 ![] bcast_S_S1000000 (constant (F := Ideal) S_ .f32 0x3F800000#32))

/-- The column of reciprocals of the in-degree clamped below at one. -/
def invDeg (e : IVec S2x1000000 32) : FVec Ideal S100000x1 .f32 :=
  shapeCast S100000x1
    (Host.divf (broadcastInDim S100000 ![] bcast_S_S100000 (constant (F := Ideal) S_ .f32 0x3F800000#32))
      (maximumf (cntOf e) (broadcastInDim S100000 ![] bcast_S_S100000 (constant (F := Ideal) S_ .f32 0x3F800000#32))))
    shapeCasts_S100000_S100000x1

variable (m : (ℓ : Loc nD τ sig) → Buf (Elt Ideal) ℓ) (ρ : Dev nD → PrngReg)

/-! ## What the first region finds -/

set_option maxHeartbeats 4000000 in
theorem V1_v17 (c : Dev nD) : (V1 m ρ c main_v17 : S100000x128.Idx → EReal)
    = msum128 (m ((c.tc : Thread nD τ).loc main_arg0)) (m ((c.tc : Thread nD τ).loc main_arg1)) := by
  show StableHlo.after hostOps0 (W0 m ρ c) (Proc.devRef .tc main_v17) = _
  dsimp only [hostOps0]
  after_results_simp
  rfl

set_option maxHeartbeats 4000000 in
theorem V1_v26 (c : Dev nD) : (V1 m ρ c main_v26 : S100000x1.Idx → EReal) = invDeg (m ((c.tc : Thread nD τ).loc main_arg1)) := by
  show StableHlo.after hostOps0 (W0 m ρ c) (Proc.devRef .tc main_v26) = _
  dsimp only [hostOps0]
  after_results_simp
  rfl

set_option maxHeartbeats 4000000 in
theorem V1_arg0 (c : Dev nD) : (V1 m ρ c main_arg0 : S100000x128.Idx → EReal) = (m ((c.tc : Thread nD τ).loc main_arg0)) := by
  show StableHlo.after hostOps0 (W0 m ρ c) (Proc.devRef .tc main_arg0) = _
  dsimp only [hostOps0]
  after_results_simp <;> rfl

set_option maxHeartbeats 4000000 in
theorem V1_arg3 (c : Dev nD) : (V1 m ρ c main_arg3 : S128x128.Idx → EReal) = (m ((c.tc : Thread nD τ).loc main_arg3)) := by
  show StableHlo.after hostOps0 (W0 m ρ c) (Proc.devRef .tc main_arg3) = _
  dsimp only [hostOps0]
  after_results_simp <;> rfl

set_option maxHeartbeats 4000000 in
theorem V1_arg5 (c : Dev nD) : (V1 m ρ c main_arg5 : S128x128.Idx → EReal) = (m ((c.tc : Thread nD τ).loc main_arg5)) := by
  show StableHlo.after hostOps0 (W0 m ρ c) (Proc.devRef .tc main_arg5) = _
  dsimp only [hostOps0]
  after_results_simp <;> rfl

set_option maxHeartbeats 4000000 in
theorem V1_arg6 (c : Dev nD) : (V1 m ρ c main_arg6 : S128x64.Idx → EReal) = (m ((c.tc : Thread nD τ).loc main_arg6)) := by
  show StableHlo.after hostOps0 (W0 m ρ c) (Proc.devRef .tc main_arg6) = _
  dsimp only [hostOps0]
  after_results_simp <;> rfl

set_option maxHeartbeats 4000000 in
theorem V1_v27 (c : Dev nD) : (V1 m ρ c main_v27 : S1x128.Idx → EReal) = shapeCast S1x128 (m ((c.tc : Thread nD τ).loc main_arg4)) shapeCasts_S128_S1x128 := by
  show StableHlo.after hostOps0 (W0 m ρ c) (Proc.devRef .tc main_v27) = _
  dsimp only [hostOps0]
  after_results_simp <;> rfl

/-! ## What the first region leaves, and what the host operations between the regions read -/

set_option maxHeartbeats 4000000 in
theorem W2_v5 (c : Dev nD) : (W2 m ρ c (Proc.devRef .tc main_v5) : S1000000.Idx → BitVec 32) = srcVec (m ((c.tc : Thread nD τ).loc main_arg2)) := by
  refine (W2_of_ne m ρ c main_v5 (by decide)).trans ?_
  show StableHlo.after hostOps0 (W0 m ρ c) (Proc.devRef .tc main_v5) = _
  dsimp only [hostOps0]
  after_results_simp <;> rfl

set_option maxHeartbeats 4000000 in
theorem W2_v7 (c : Dev nD) : (W2 m ρ c (Proc.devRef .tc main_v7) : S1000000.Idx → BitVec 32) = shapeCast S1000000 (extractStridedSlice S1x1000000 ![1, 0] (m ((c.tc : Thread nD τ).loc main_arg2)) slices_S2x1000000_S1x1000000_1_0) shapeCasts_S1x1000000_S1000000 := by
  refine (W2_of_ne m ρ c main_v7 (by decide)).trans ?_
  show StableHlo.after hostOps0 (W0 m ρ c) (Proc.devRef .tc main_v7) = _
  dsimp only [hostOps0]
  after_results_simp <;> rfl

set_option maxHeartbeats 4000000 in
theorem W2_arg7 (c : Dev nD) : (W2 m ρ c (Proc.devRef .tc main_arg7) : S64.Idx → EReal) = (m ((c.tc : Thread nD τ).loc main_arg7)) := by
  refine (W2_of_ne m ρ c main_arg7 (by decide)).trans ?_
  show StableHlo.after hostOps0 (W0 m ρ c) (Proc.devRef .tc main_arg7) = _
  dsimp only [hostOps0]
  after_results_simp <;> rfl

set_option maxHeartbeats 4000000 in
theorem W2_arg8 (c : Dev nD) : (W2 m ρ c (Proc.devRef .tc main_arg8) : S128x64.Idx → EReal) = (m ((c.tc : Thread nD τ).loc main_arg8)) := by
  refine (W2_of_ne m ρ c main_arg8 (by decide)).trans ?_
  show StableHlo.after hostOps0 (W0 m ρ c) (Proc.devRef .tc main_arg8) = _
  dsimp only [hostOps0]
  after_results_simp <;> rfl

/-- The hidden array as a term of the arguments. -/
def hidK (x0 : FVec Ideal S100000x128 .f32) (x1 : IVec S2x1000000 32) (x3 : FVec Ideal S128x128 .f32) (x4 : FVec Ideal S128 .f32)
    (x5 : FVec Ideal S128x128 .f32) : S100000x128.Idx → EReal :=
  SageRegion.hidArr (msum128 x0 x1) (invDeg x1) x0 x3 (shapeCast S1x128 x4 shapeCasts_S128_S1x128) x5

/-- The projected array as a term of the arguments. -/
def projK (x0 : FVec Ideal S100000x128 .f32) (x1 : IVec S2x1000000 32) (x3 : FVec Ideal S128x128 .f32) (x4 : FVec Ideal S128 .f32)
    (x5 : FVec Ideal S128x128 .f32) (x6 : FVec Ideal S128x64 .f32) : S100000x64.Idx → EReal :=
  SageRegion.projArr (msum128 x0 x1) (invDeg x1) x0 x3 (shapeCast S1x128 x4 shapeCasts_S128_S1x128) x5 x6

theorem W2_v28_0 (c : Dev nD) : (W2 m ρ c (Proc.devRef .tc main_v28_0) : S100000x128.Idx → EReal)
    = hidK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 7).trans ((SageRegion.final0_7 (V1 m ρ) c).trans ?_)
  rw [V1_v17 m ρ c, V1_v26 m ρ c, V1_arg0 m ρ c, V1_arg3 m ρ c, V1_v27 m ρ c, V1_arg5 m ρ c]
  rfl

theorem W2_v28_1 (c : Dev nD) : (W2 m ρ c (Proc.devRef .tc main_v28_1) : S100000x64.Idx → EReal)
    = projK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 8).trans ((SageRegion.final0_8 (V1 m ρ) c).trans ?_)
  rw [V1_v17 m ρ c, V1_v26 m ρ c, V1_arg0 m ρ c, V1_arg3 m ρ c, V1_v27 m ρ c, V1_arg5 m ρ c, V1_arg6 m ρ c]
  rfl

/-! ## What the second region finds -/

set_option maxHeartbeats 4000000 in
theorem V3_v38 (c : Dev nD) : (V3 m ρ c main_v38 : S100000x64.Idx → EReal)
    = msum64 (W2 m ρ c (Proc.devRef .tc main_v28_1)) (m ((c.tc : Thread nD τ).loc main_arg2)) := by
  show StableHlo.after hostOps1 (W2 m ρ c) (Proc.devRef .tc main_v38) = _
  dsimp only [hostOps1]
  after_results_simp
  rw [W2_v5 m ρ c, W2_v7 m ρ c]
  rfl

set_option maxHeartbeats 4000000 in
theorem V3_v47 (c : Dev nD) : (V3 m ρ c main_v47 : S100000x1.Idx → EReal) = invDeg (m ((c.tc : Thread nD τ).loc main_arg2)) := by
  show StableHlo.after hostOps1 (W2 m ρ c) (Proc.devRef .tc main_v47) = _
  dsimp only [hostOps1]
  after_results_simp
  rw [W2_v7 m ρ c]
  rfl

set_option maxHeartbeats 4000000 in
theorem V3_v28_0 (c : Dev nD) : (V3 m ρ c main_v28_0 : S100000x128.Idx → EReal) = W2 m ρ c (Proc.devRef .tc main_v28_0) := by
  show StableHlo.after hostOps1 (W2 m ρ c) (Proc.devRef .tc main_v28_0) = _
  dsimp only [hostOps1]
  after_results_simp <;> rfl

set_option maxHeartbeats 4000000 in
theorem V3_arg8 (c : Dev nD) : (V3 m ρ c main_arg8 : S128x64.Idx → EReal) = (m ((c.tc : Thread nD τ).loc main_arg8)) := by
  show StableHlo.after hostOps1 (W2 m ρ c) (Proc.devRef .tc main_arg8) = _
  dsimp only [hostOps1]
  after_results_simp
  exact W2_arg8 m ρ c

set_option maxHeartbeats 4000000 in
theorem V3_v48 (c : Dev nD) : (V3 m ρ c main_v48 : S1x64.Idx → EReal) = shapeCast S1x64 (m ((c.tc : Thread nD τ).loc main_arg7)) shapeCasts_S64_S1x64 := by
  show StableHlo.after hostOps1 (W2 m ρ c) (Proc.devRef .tc main_v48) = _
  dsimp only [hostOps1]
  after_results_simp
  rw [W2_arg7 m ρ c]
  rfl

/-! ## The result array as a term of the arguments -/

/-- The result array as a term of the nine argument arrays. -/
def kOut (x0 : FVec Ideal S100000x128 .f32) (x1 x2 : IVec S2x1000000 32) (x3 : FVec Ideal S128x128 .f32) (x4 : FVec Ideal S128 .f32)
    (x5 : FVec Ideal S128x128 .f32) (x6 : FVec Ideal S128x64 .f32) (x7 : FVec Ideal S64 .f32) (x8 : FVec Ideal S128x64 .f32) :
    S100000x64.Idx → EReal :=
  SageRegion1.outArr (msum64 (projK x0 x1 x3 x4 x5 x6) x2) (invDeg x2) (hidK x0 x1 x3 x4 x5) x8 (shapeCast S1x64 x7 shapeCasts_S64_S1x64)

/-- After the run the second region's output array holds that term of the launch contents of the arguments. -/
theorem result_eq (c : Dev nD) : (dat1 (V3 m ρ) c).arrAt 5 cfg1.N
    = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (SageRegion1.final1_5 (V3 m ρ) c).trans ?_
  rw [V3_v38 m ρ c, V3_v47 m ρ c, V3_v28_0 m ρ c, V3_arg8 m ρ c, V3_v48 m ρ c, W2_v28_1 m ρ c, W2_v28_0 m ρ c]
  rfl

end Cert.KernelIdeal.SageHost

end
-- ==== Proof.LibSegmentGather.lean ====
/-
  Message passing on the extended reals, read at an entry: the rows of an array gathered at one column of row numbers and
  scatter-added into the zero array at another.

  With a source column `scol` and a target column `tcol` of `R` row numbers, `zeros.at[tcol].add(X[scol])` holds at entry
  `(n, c)` the sum, over the rows `e` whose signed target number is `n`, of `X` at the clamped source row of `e` and
  column `c`: the scatter-add keeps exactly the updates whose target is a row of the array, and a gather reads the operand
  at the clamped row.
-/
import proofs.«169007_j60086592471214_2_alg».proof.Proof.LibRowScatter

noncomputable section

open scoped BigOperators

namespace Idealize.ShloMosaic.RowScatter

open Idealize.ShloMosaic Idealize.ShloMosaic.ValueIdx

/-- Gathered rows scatter-added into an array that is zero everywhere, at an entry. -/
theorem scatterAdd_gather_zero_apply {N R C w : ℕ} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (z X : FVec Ideal ⟨2, ![N, C]⟩ .f32) (hz : ∀ i, z i = (0 : EReal)) (tcol scol : IVec ⟨2, ![R, 1]⟩ w) (n : Fin N) (c : Fin C) :
    Host.scatterAdd (scatterRows N R C wfs) z tcol (Host.gather (gatherRows N R C wfg) X scol) (ix2 n c)
      = ∑ e ∈ Finset.univ.filter (fun e : Fin R => rowNo tcol e = (n.val : Int)), X (ix2 (clampRow N hN scol e) c) := by
  rw [hostScatterAddRows_apply, hz, zero_add]
  exact Finset.sum_congr rfl fun e _ => gatherRows_apply wfg scol e c hN X

end Idealize.ShloMosaic.RowScatter

end
-- ==== Proof.KernelValue.lean ====
/-
  The idealized kernel program's result at an entry is the specification's formula.

  The neighbour sums the program computes by a gather and a scatter-add are the sums over a node's in-edges of the
  source rows; its reciprocal of the clamped count is one over the clamped in-degree.  The first region's hidden array is
  then the rectified first layer (scaling by the reciprocal is dividing).  The second region is handed the neighbour sums
  of the PROJECTED hidden features: on real hidden features and real weights the mean of the projections is the
  projection of the mean, so its logits are the second layer's, and its stored row is their log-softmax.
-/
import proofs.«169007_j60086592471214_2_alg».proof.Proof.KernelHost
import proofs.«169007_j60086592471214_2_alg».proof.Proof.LibSegmentGather
import proofs.«169007_j60086592471214_2_alg».proof.Proof.LibColumnLayout
import proofs.«169007_j60086592471214_2_alg».proof.Proof.LibMeanScale
import proofs.«169007_j60086592471214_2_alg».proof.Proof.SageSpec
import Idealize.ShloMosaic.Lib.ValueLayout

set_option maxRecDepth 16384

noncomputable section

open scoped BigOperators

namespace Cert.KernelIdeal.SageValue

open Cert.KernelIdeal Cert.KernelIdeal.Gen Idealize.ShloMosaic Idealize.ShloMosaic.ValueIdx Idealize.ShloMosaic.RowScatter
open Cert.KernelIdeal.SageHost Cert.KernelIdeal.SageRegion

/-! ## The printed gather and scatter records are the row forms -/

theorem scatter128_eq : scatter_S100000x128_S1000000x1_S1000000x128_1_0_0_1
    = scatterRows 100000 1000000 128 Facts₀.scatter_S100000x128_S1000000x1_S1000000x128_1_0_0_1_wf := rfl
theorem gather128_eq : gather_S100000x128_S1000000x1_S1000000x128_1_0_n_n_0_1_1128
    = gatherRows 100000 1000000 128 Facts₀.gather_S100000x128_S1000000x1_S1000000x128_1_0_n_n_0_1_1128_wf := rfl
theorem scatter64_eq : scatter_S100000x64_S1000000x1_S1000000x64_1_0_0_1
    = scatterRows 100000 1000000 64 Facts₀.scatter_S100000x64_S1000000x1_S1000000x64_1_0_0_1_wf := rfl
theorem gather64_eq : gather_S100000x64_S1000000x1_S1000000x64_1_0_n_n_0_1_164
    = gatherRows 100000 1000000 64 Facts₀.gather_S100000x64_S1000000x1_S1000000x64_1_0_n_n_0_1_164_wf := rfl
theorem scatterCol_eq : scatter_S100000_S1000000x1_S1000000_n_0_0_1
    = scatterCol 100000 1000000 Facts₀.scatter_S100000_S1000000x1_S1000000_n_0_0_1_wf := rfl

/-! ## The aggregates at an entry -/

/-- The 128-wide neighbour sums at an entry: the sum over the node's in-edges of the source rows. -/
theorem msum128_apply (x : FVec Ideal S100000x128 .f32) (e : IVec S2x1000000 32) (n : Fin 100000) (k : Fin 128) :
    msum128 x e (ix2 n k) = Sage.nsum (Sage.nbOf (tcolOf e)) (Sage.srcOf (scolOf e)) (Sage.mat x) n k := by
  unfold msum128
  rw [scatter128_eq, gather128_eq]
  exact scatterAdd_gather_zero_apply (by norm_num) _ _ _ x (fun i => Ideal.ofBits_zero_f32) (tcolOf e) (scolOf e) n k

/-- The 64-wide neighbour sums at an entry. -/
theorem msum64_apply (x : FVec Ideal S100000x64 .f32) (e : IVec S2x1000000 32) (n : Fin 100000) (k : Fin 64) :
    msum64 x e (ix2 n k) = Sage.nsum (Sage.nbOf (tcolOf e)) (Sage.srcOf (scolOf e)) (Sage.mat x) n k := by
  unfold msum64
  rw [scatter64_eq, gather64_eq]
  exact scatterAdd_gather_zero_apply (by norm_num) _ _ _ x (fun i => Ideal.ofBits_zero_f32) (tcolOf e) (scolOf e) n k

/-- The scatter-add of a column at the ideal values, whose meaning the sum over matching entries is. -/
theorem hostScatterAddCol_apply {φ : FTy} {N R w : ℕ} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (u : FVec Ideal ⟨1, ![R]⟩ φ) (n : Fin N) :
    Host.scatterAdd (scatterCol N R wf) x idx u (ix1 n)
      = x (ix1 n) + ∑ e ∈ Finset.univ.filter (fun e : Fin R => rowNo idx e = (n.val : Int)), u (ix1 e) :=
  scatterAddCol_apply wf x idx u n

/-- The in-degree count at a node: zero plus a one per in-edge. -/
theorem cntOf_apply (e : IVec S2x1000000 32) (n : Fin 100000) :
    cntOf e (ix1 n) = 0 + ∑ _e' ∈ Sage.nbOf (tcolOf e) n, (1 : EReal) := by
  unfold cntOf
  rw [scatterCol_eq, hostScatterAddCol_apply]
  have h0 : ∀ i, broadcastInDim S100000 ![] bcast_S_S100000 (constant (F := Ideal) S_ .f32 0x00000000#32) i = (0 : EReal) :=
    fun i => Ideal.ofBits_zero_f32
  have h1 : ∀ i, broadcastInDim S1000000 ![] bcast_S_S1000000 (constant (F := Ideal) S_ .f32 0x3F800000#32) i = (1 : EReal) :=
    fun i => MeanScale.ofBits_one_f32
  rw [h0]
  simp only [h1]
  rfl

/-- The host's quotient of two arrays at an entry. -/
theorem hostDivf_apply {s : Shape} (a b : FVec Ideal s .f32) (i : s.Idx) : Host.divf a b i = Ideal.div (a i) (b i) := rfl

/-- The reciprocal column at a node: one over the clamped in-degree. -/
theorem invDeg_apply (e : IVec S2x1000000 32) (n : Fin 100000) :
    invDeg e (ix2 n (0 : Fin 1)) = Ideal.div 1 (Sage.deg (Sage.nbOf (tcolOf e)) n) := by
  unfold invDeg
  rw [ColumnLayout.shapeCast_a_a1_apply]
  have h1 : ∀ i, broadcastInDim S100000 ![] bcast_S_S100000 (constant (F := Ideal) S_ .f32 0x3F800000#32) i = (1 : EReal) :=
    fun i => MeanScale.ofBits_one_f32
  rw [hostDivf_apply, maximumf_apply, h1, cntOf_apply]
  rfl

/-! ## The hidden array is the rectified first layer -/

theorem hidK_apply (x0 : FVec Ideal S100000x128 .f32) (x1 : IVec S2x1000000 32) (x3 : FVec Ideal S128x128 .f32)
    (x4 : FVec Ideal S128 .f32) (x5 : FVec Ideal S128x128 .f32) (n : Fin 100000) (k : Fin 128) :
    hidK x0 x1 x3 x4 x5 (ix2 n k) = Sage.hiddenOf (tcolOf x1) (scolOf x1) x0 x3 x4 x5 n k := by
  unfold hidK
  rw [hidArr_apply]
  unfold hidFn Sage.hiddenOf Sage.hidden
  refine congrArg (fun z => max z 0) ?_
  simp only [msum128_apply, invDeg_apply, shapeCast_a_1a_apply]
  exact Sage.conv_of_recip _ _ (Sage.mat x0) (Sage.mat x3) (Sage.vec x4) (Sage.mat x5) n k

/-- The projected array at an entry: the hidden array through the second layer's left weights. -/
theorem projK_apply (x0 : FVec Ideal S100000x128 .f32) (x1 : IVec S2x1000000 32) (x3 : FVec Ideal S128x128 .f32)
    (x4 : FVec Ideal S128 .f32) (x5 : FVec Ideal S128x128 .f32) (x6 : FVec Ideal S128x64 .f32) (r : Fin 100000) (j : Fin 64) :
    projK x0 x1 x3 x4 x5 x6 (ix2 r j) = ∑ k : Fin 128, hidK x0 x1 x3 x4 x5 (ix2 r k) * x6 (ix2 k j) := by
  unfold projK
  rw [projArr_apply]
  unfold projFn
  refine Finset.sum_congr rfl fun k _ => ?_
  rw [← hidArr_apply]
  rfl

/-! ## The result -/

/-- Entry `(n, j)` of the result, on real node features and real first-layer and projection weights. -/
theorem kOut_apply (x0 : FVec Ideal S100000x128 .f32) (x1 x2 : IVec S2x1000000 32) (x3 : FVec Ideal S128x128 .f32)
    (x4 : FVec Ideal S128 .f32) (x5 : FVec Ideal S128x128 .f32) (x6 : FVec Ideal S128x64 .f32) (x7 : FVec Ideal S64 .f32)
    (x8 : FVec Ideal S128x64 .f32) (h0 : ∀ i, Sage.IsReal (x0 i)) (h3 : ∀ i, Sage.IsReal (x3 i)) (h4 : ∀ i, Sage.IsReal (x4 i))
    (h5 : ∀ i, Sage.IsReal (x5 i)) (h6 : ∀ i, Sage.IsReal (x6 i)) (n : Fin 100000) (j : Fin 64) :
    kOut x0 x1 x2 x3 x4 x5 x6 x7 x8 (ix2 n j)
      = Sage.outOf (tcolOf x1) (scolOf x1) (tcolOf x2) (scolOf x2) x0 x3 x4 x5 x6 x7 x8 n j := by
  unfold kOut
  rw [SageRegion1.outArr_apply]
  unfold SageRegion1.outFn Sage.outOf
  refine congrArg (fun z => Sage.logSoftmaxRow z j) (funext fun q => ?_)
  rw [msum64_apply, invDeg_apply, shapeCast_a_1a_apply]
  have hH : ∀ r k, Sage.IsReal (Sage.hiddenOf (tcolOf x1) (scolOf x1) x0 x3 x4 x5 r k) :=
    Sage.hiddenOf_real _ _ _ _ _ _ h0 h3 h4 h5
  have hproj : Sage.mat (projK x0 x1 x3 x4 x5 x6)
      = fun r j' => ∑ k : Fin 128, Sage.hiddenOf (tcolOf x1) (scolOf x1) x0 x3 x4 x5 r k * Sage.mat x6 k j' := by
    funext r j'
    show projK x0 x1 x3 x4 x5 x6 (ix2 r j') = _
    rw [projK_apply]
    simp only [hidK_apply]
    rfl
  rw [hproj]
  simp only [hidK_apply]
  exact Sage.conv_of_projected _ _ _ (Sage.mat x6) (Sage.vec x7) (Sage.mat x8) hH (fun k j' => h6 _) n q

end Cert.KernelIdeal.SageValue

end
-- ==== Proof.PreReal.lean ====
import proofs.«169007_j60086592471214_2_alg».proof.Defs
import proofs.«169007_j60086592471214_2_alg».proof.Proof.Gen.Pre_finite_inputs
import Idealize.ShloMosaic.Lib.ReduceAll
import Idealize.ShloMosaic.Lib.ValueIdx

namespace Cert.PreReal
open Idealize.ShloMosaic Idealize.SL.Sem

/-- An extended real whose absolute value `max x (-x)` lies strictly below `+∞` is a real number:
    `x = +∞` makes the maximum `+∞`, and so does `x = -∞` through `-x`. -/
private theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
private instance : Subsingleton (⟨0, ![]⟩ : Shape).Idx := ⟨fun a b => funext fun d => d.elim0⟩

/-- If the conjunction over all entries of `|x| < +∞` (the f32 pattern `0x7F800000`, broadcast from a scalar)
    is true, then every entry of `x` is a real number. -/
private theorem real_of_all_finite {s u : Shape} {axes : List (Fin s.rank)}
    (x : FVec Ideal s .f32) (hb : (⟨0, ![]⟩ : Shape).BroadcastsInDim s (![] : Fin 0 → Fin s.rank))
    (init : u.Idx → BitVec 1) (h : s.ReducesTo axes (⟨0, ![]⟩ : Shape)) (hu : 0 < u.numel)
    (j : (⟨0, ![]⟩ : Shape).Idx)
    (e : Host.reduce IntOp.andi
          (cmpf .olt (Host.absf x)
            (broadcastInDim s ![] hb (constant (F := Ideal) (⟨0, ![]⟩ : Shape) .f32 0x7F800000#32)))
          init h hu j = 1#1)
    (i : s.Idx) : ∃ r : ℝ, x i = (r : EReal) := by
  have hi := Host.reduce_andi_all _ init h hu j e i
  have htop : Ideal.ofBits .f32 0x7F800000#32 = ⊤ := by simp [Ideal.ofBits, Ideal.ieee]
  change Ideal.cmp .olt (max (x i : EReal) (-(x i : EReal))) (Ideal.ofBits .f32 0x7F800000#32) = 1#1 at hi
  rw [htop] at hi
  apply real_of_abs_lt_top
  by_contra hn
  simp [Ideal.cmp, hn] at hi

/-- Under the precondition every entry of the node features and of the first four weight arrays is a real number. -/
theorem real_entries [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all_finite _ _ _ _ _ _ e0, real_of_all_finite _ _ _ _ _ _ e3,
    real_of_all_finite _ _ _ _ _ _ e4, real_of_all_finite _ _ _ _ _ _ e5,
    real_of_all_finite _ _ _ _ _ _ e6⟩

end Cert.PreReal
-- ==== Proof.LibTypedViews.lean ====
/-
  Typed views of a buffer, there and back.

  A host function that the printer outlines reads and writes its buffers through typed views: contents at the
  value's type `T` are carried to the buffer's own type and back along the equation `x.ty_eq : x.ref.ty = T`
  (`TRef.toBuf`, `TRef.ofBuf`: two transports along that one equation, in opposite directions). Whatever the buffer,
  one transport followed by the other is the identity: the two composites below. A SINGLE view is the identity as
  well, but only where the two types are the same type — at a literal buffer `r` whose printed type is `T`, where
  `(TRef.of (T := T) r).ofBuf a = a` and `(TRef.of (T := T) r).toBuf a = a` are each `cast_eq _ _`; those are
  stated per buffer, since for an abstract buffer the equation does not even typecheck.

  What these are for: an equation between a term read off a run that passed through such views and the same term
  written without them. Taking the views off by these rewrites first keeps the comparison of the two terms from
  looking inside the functions under the views.
-/
import Idealize.ShloMosaic.Lib.StableHlo

namespace Cert.Lib.TypedViews

open Idealize.ShloMosaic Idealize.ShloMosaic.StableHlo

variable {sig : RefSig} {T : BufTy} {Val : EltTy → Type}

/-- Into the buffer's type and back out: the identity on contents at the value's type. -/
theorem ofBuf_toBuf (x : TRef sig T) (v : T.Contents Val) : x.ofBuf (x.toBuf v) = v := by
  unfold TRef.ofBuf TRef.toBuf
  rw [cast_cast, cast_eq]

/-- Out of the buffer's type and back in: the identity on contents at the buffer's type. -/
theorem toBuf_ofBuf (x : TRef sig T) (v : x.ref.ty.Contents Val) : x.toBuf (x.ofBuf v) = v := by
  unfold TRef.ofBuf TRef.toBuf
  rw [cast_cast, cast_eq]

end Cert.Lib.TypedViews
-- ==== Proof.RefStages.lean ====
/-
  The reference program's run, with its result named by its stages.

  The program is a list of 88 host operations.  The contents an operation list leaves behind are a fold over the list, so
  a list cut in pieces leaves what the last piece leaves from what the pieces before it left.  The list is cut in three.
  The first 38 operations compute the rectified hidden features from the node features, the first edge list and the first
  layer's weights.  The next 35 read only those hidden features, the second edge list and the second layer's weights, and
  compute the logits.  The last 15 are the row-wise log-softmax, a function of the logits array alone.  Reading the three
  pieces one after the other gives the result as the last stage of the stage-by-stage description, with the hidden
  features and the logits each as one shared value rather than a term written out at each of its uses.
-/
import proofs.«169007_j60086592471214_2_alg».proof.Proof.PatchedReferenceRead
import proofs.«169007_j60086592471214_2_alg».proof.Proof.LibTypedViews

noncomputable section

namespace Cert.ReferenceIdeal.SageRef

open Cert.ReferenceIdeal Cert.ReferenceIdeal.Gen Idealize.ShloMosaic Idealize.ShloMosaic.TcCoe Idealize.SL.Sem Idealize.ShloMosaic.StableHlo

variable {F : FTy → Type} [FloatOps F]

/-- What a concatenation leaves is what its second part leaves from what its first part left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The first layer: operations 1 to 38 -/

set_option maxHeartbeats 4000000 in
/-- The first 38 operations leave the hidden features: the first layer, rectified, of the arguments they read. -/
theorem hidden_after (W : Valuation τ sig (Elt F)) :
    after ((Value.ops (F := F)).take 38) W (Proc.devRef .tc main_v29)
      = Read.val_main_v29 (F := F) (W (Proc.devRef .tc main_arg0)) (W (Proc.devRef .tc main_arg1)) (W (Proc.devRef .tc main_arg3))
          (W (Proc.devRef .tc main_arg4)) (W (Proc.devRef .tc main_arg5)) := by
  simp only [Value.ops, List.take_succ_cons, List.take_zero]
  after_results_simp
  rfl

set_option maxHeartbeats 4000000 in
/-- The first 38 operations leave argument 2 as it was. -/
theorem arg2_after (W : Valuation τ sig (Elt F)) :
    after ((Value.ops (F := F)).take 38) W (Proc.devRef .tc main_arg2) = (W (Proc.devRef .tc main_arg2)) := by
  simp only [Value.ops, List.take_succ_cons, List.take_zero]
  after_results_simp

set_option maxHeartbeats 4000000 in
/-- The first 38 operations leave argument 6 as it was. -/
theorem arg6_after (W : Valuation τ sig (Elt F)) :
    after ((Value.ops (F := F)).take 38) W (Proc.devRef .tc main_arg6) = (W (Proc.devRef .tc main_arg6)) := by
  simp only [Value.ops, List.take_succ_cons, List.take_zero]
  after_results_simp

set_option maxHeartbeats 4000000 in
/-- The first 38 operations leave argument 7 as it was. -/
theorem arg7_after (W : Valuation τ sig (Elt F)) :
    after ((Value.ops (F := F)).take 38) W (Proc.devRef .tc main_arg7) = (W (Proc.devRef .tc main_arg7)) := by
  simp only [Value.ops, List.take_succ_cons, List.take_zero]
  after_results_simp

set_option maxHeartbeats 4000000 in
/-- The first 38 operations leave argument 8 as it was. -/
theorem arg8_after (W : Valuation τ sig (Elt F)) :
    after ((Value.ops (F := F)).take 38) W (Proc.devRef .tc main_arg8) = (W (Proc.devRef .tc main_arg8)) := by
  simp only [Value.ops, List.take_succ_cons, List.take_zero]
  after_results_simp

/-! ## The second layer: operations 39 to 73 -/

set_option maxHeartbeats 4000000 in
/-- The next 35 operations, from contents that hold the hidden features, leave the logits. -/
theorem logits_after (W : Valuation τ sig (Elt F)) (x0 : (⟨S100000x128, .f32⟩ : BufTy).Contents (Elt F))
    (x1 : (⟨S2x1000000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (h : W (Proc.devRef .tc main_v29) = Read.val_main_v29 (F := F) x0 x1 x3 x4 x5) :
    after (((Value.ops (F := F)).drop 38).take 35) W (Proc.devRef .tc main_v58)
      = Read.val_main_v58 (F := F) x0 x1 (W (Proc.devRef .tc main_arg2)) x3 x4 x5 (W (Proc.devRef .tc main_arg6))
          (W (Proc.devRef .tc main_arg7)) (W (Proc.devRef .tc main_arg8)) := by
  simp only [Value.ops, List.drop_succ_cons, List.drop_zero, List.take_succ_cons, List.take_zero]
  after_results_simp
  rw [h]
  rfl

/-! ## The log-softmax: operations 74 to 88

The last 15 operations are the body of a called function.  From the logits array they take each row's maximum (once more
the maximum with −∞), subtract it, and subtract the logarithm of the row's sum of exponentials: one function of the
logits array, named here.  The last stage of the stage-by-stage description is this function of the logits stage.  A
called function's operations read and write each buffer at its tensor value's type, which is the buffer's own type read
along an equation; what such an operation leaves in its result's buffer, read at the value's type, is the operation's
function of its operands' buffers read at theirs. -/

/-- A row's maximum, as the reference computes it: the maximum of a column of −∞ and the max-reduction from −∞. -/
def lsmMax (z : (⟨S100000x64, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x64_S100000_d1 h_S_)

/-- The logits shifted by their row's maximum. -/
def lsmShift (z : (⟨S100000x64, .f32⟩ : BufTy).Contents (Elt F)) : (⟨S100000x64, .f32⟩ : BufTy).Contents (Elt F) :=
  subf z (broadcastInDim S100000x64 ![0, 1] bcast_S100000x1_S100000x64_0_1
    (broadcastInDim S100000x1 ![0] bcast_S100000_S100000x1_0 (lsmMax z)))

/-- The log-softmax of the logits array: the shifted logits minus the logarithm of their row's sum of exponentials. -/
def lsmOut (z : (⟨S100000x64, .f32⟩ : BufTy).Contents (Elt F)) : (⟨S100000x64, .f32⟩ : BufTy).Contents (Elt F) :=
  subf (lsmShift z) (broadcastInDim S100000x64 ![0, 1] bcast_S100000x1_S100000x64_0_1
    (Host.log (broadcastInDim S100000x1 ![0] bcast_S100000_S100000x1_0
      (Host.reduceAdd (Host.exp (lsmShift z)) (constant S_ .f32 0x00000000#32) reducesTo_S100000x64_S100000_d1 h_S_))))

/-- The last stage is the log-softmax of the logits stage. -/
theorem val_main_v59_eq_lsmOut (x0 : (⟨S100000x128, .f32⟩ : BufTy).Contents (Elt F))
    (x1 x2 : (⟨S2x1000000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128x64, .f32⟩ : BufTy).Contents (Elt F)) (x7 : (⟨S64, .f32⟩ : BufTy).Contents (Elt F))
    (x8 : (⟨S128x64, .f32⟩ : BufTy).Contents (Elt F)) :
    Read.val_main_v59 (F := F) x0 x1 x2 x3 x4 x5 x6 x7 x8 = lsmOut (Read.val_main_v58 (F := F) x0 x1 x2 x3 x4 x5 x6 x7 x8) := by
  unfold Read.val_main_v59 Read.val_main_call1_v10 Read.val_main_call1_v9 Read.val_main_call1_v8 Read.val_main_call1_v7
    Read.val_main_call1_v6 Read.val_main_call1_v5 Read.val_main_call1_v4 Read.val_main_call1_v3 Read.val_main_call1_v2
    Read.val_main_call1_v1 Read.val_main_call1_v0 Read.val_main_call1_cst Read.val_main_call1_cst_0 Read.val_main_call1_cst_1
    lsmOut lsmShift lsmMax
  rfl

/-- What a valuation holds at the buffer of a tensor value, at the value's type. -/
def rd {T : BufTy} (x : TRef sig T) (V : Valuation τ sig (Elt F)) : T.Contents (Elt F) :=
  x.ofBuf (V (Proc.devRef .tc x.ref))

/-- After an operation of a called function, its result's buffer holds the function's value of what the operands' buffers
    held, each at its value's type. -/
theorem rd_nullary {Ty : BufTy} (y : TRef sig Ty) (v : Ty.Contents (Elt F)) (V : Valuation τ sig (Elt F)) :
    rd y (HloOp.result (no_index (TRef.nullary (τ := τ) y v)) V) = v :=
  (congrArg y.ofBuf (nullary_result y.ref (y.toBuf v) y.dev V)).trans (Cert.Lib.TypedViews.ofBuf_toBuf y v)

theorem rd_unary {Tx Ty : BufTy} (x : TRef sig Tx) (y : TRef sig Ty) (f : Tx.Contents (Elt F) → Ty.Contents (Elt F))
    (V : Valuation τ sig (Elt F)) :
    rd y (HloOp.result (no_index (TRef.unary (τ := τ) x y f)) V) = f (rd x V) :=
  (congrArg y.ofBuf (unary_result x.ref y.ref (fun u => y.toBuf (f (x.ofBuf u))) x.dev y.dev V)).trans
    (Cert.Lib.TypedViews.ofBuf_toBuf y _)

theorem rd_binary {Ta Tb Ty : BufTy} (a : TRef sig Ta) (b : TRef sig Tb) (y : TRef sig Ty)
    (f : Ta.Contents (Elt F) → Tb.Contents (Elt F) → Ty.Contents (Elt F)) (V : Valuation τ sig (Elt F)) :
    rd y (HloOp.result (no_index (TRef.binary (τ := τ) a b y f)) V) = f (rd a V) (rd b V) :=
  (congrArg y.ofBuf (binary_result a.ref b.ref y.ref (fun u v => y.toBuf (f (a.ofBuf u) (b.ofBuf v))) a.dev b.dev y.dev V)).trans
    (Cert.Lib.TypedViews.ofBuf_toBuf y _)

/-- … and every other buffer holds what it held. -/
theorem rd_nullary_ne {T Ty : BufTy} (r : TRef sig T) (y : TRef sig Ty) (v : Ty.Contents (Elt F))
    (V : Valuation τ sig (Elt F)) (h : r.ref ≠ y.ref) :
    rd r (HloOp.result (no_index (TRef.nullary (τ := τ) y v)) V) = rd r V :=
  congrArg r.ofBuf (nullary_result_ne (y := y.ref) (y.toBuf v) y.dev V h)

theorem rd_unary_ne {T Tx Ty : BufTy} (r : TRef sig T) (x : TRef sig Tx) (y : TRef sig Ty)
    (f : Tx.Contents (Elt F) → Ty.Contents (Elt F)) (V : Valuation τ sig (Elt F)) (h : r.ref ≠ y.ref) :
    rd r (HloOp.result (no_index (TRef.unary (τ := τ) x y f)) V) = rd r V :=
  congrArg r.ofBuf (unary_result_ne (x := x.ref) (y := y.ref) (fun u => y.toBuf (f (x.ofBuf u))) x.dev y.dev V h)

theorem rd_binary_ne {T Ta Tb Ty : BufTy} (r : TRef sig T) (a : TRef sig Ta) (b : TRef sig Tb) (y : TRef sig Ty)
    (f : Ta.Contents (Elt F) → Tb.Contents (Elt F) → Ty.Contents (Elt F)) (V : Valuation τ sig (Elt F)) (h : r.ref ≠ y.ref) :
    rd r (HloOp.result (no_index (TRef.binary (τ := τ) a b y f)) V) = rd r V :=
  congrArg r.ofBuf (binary_result_ne (a := a.ref) (b := b.ref) (y := y.ref)
    (fun u v => y.toBuf (f (a.ofBuf u) (b.ofBuf v))) a.dev b.dev y.dev V h)

/-- At the buffers of the logits and of the result, the value's type is the buffer's. -/
theorem rd_v58 (V : Valuation τ sig (Elt F)) :
    rd (TRef.of (T := ⟨S100000x64, .f32⟩) main_v58) V = V (Proc.devRef .tc main_v58) := rfl
theorem rd_v59 (V : Valuation τ sig (Elt F)) :
    rd (TRef.of (T := ⟨S100000x64, .f32⟩) main_v59) V = V (Proc.devRef .tc main_v59) := rfl

set_option maxHeartbeats 4000000 in
/-- The last 15 operations leave, at the result's value type, the log-softmax of the logits they find. -/
theorem tail_rd (W : Valuation τ sig (Elt F)) :
    rd (TRef.of (T := ⟨S100000x64, .f32⟩) main_v59) (after ((Value.ops (F := F)).drop 73) W)
      = lsmOut (F := F) (rd (TRef.of (T := ⟨S100000x64, .f32⟩) main_v58) W) := by
  simp only [Value.ops, List.drop_succ_cons, List.drop_zero, after_cons, after_nil]
  unfold lsmOut lsmShift lsmMax
  simp (disch := decide) only [rd_nullary, rd_unary, rd_binary, rd_nullary_ne, rd_unary_ne, rd_binary_ne]

/-- The last 15 operations leave the log-softmax of the logits they find. -/
theorem out_after (W : Valuation τ sig (Elt F)) :
    after ((Value.ops (F := F)).drop 73) W (Proc.devRef .tc main_v59) = lsmOut (F := F) (W (Proc.devRef .tc main_v58)) := by
  have h := tail_rd W
  rw [rd_v59, rd_v58] at h
  exact h

/-! ## The whole program -/

/-- The operation list is its three pieces. -/
theorem ops_pieces : (Value.ops (F := F))
    = (Value.ops (F := F)).take 38 ++ (((Value.ops (F := F)).drop 38).take 35 ++ (Value.ops (F := F)).drop 73) := by
  have e : (Value.ops (F := F)).drop 73 = ((Value.ops (F := F)).drop 38).drop 35 := by rw [List.drop_drop]
  rw [e, List.take_append_drop, List.take_append_drop]

/-- All 88 operations leave the last stage of the arguments. -/
theorem result_after (W : Valuation τ sig (Elt F)) :
    after (Value.ops (F := F)) W (Proc.devRef .tc main_v59)
      = Read.val_main_v59 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  have e : after (Value.ops (F := F)) W
      = after ((Value.ops (F := F)).drop 73) (after (((Value.ops (F := F)).drop 38).take 35) (after ((Value.ops (F := F)).take 38) W)) := by
    rw [← after_append, ← after_append, ← ops_pieces]
  rw [e, out_after, logits_after _ _ _ _ _ _ (hidden_after W), arg2_after, arg6_after, arg7_after, arg8_after,
    val_main_v59_eq_lsmOut]

/-- On every device, from any memory with zero counters: every weakly fair execution of the reference terminates with
    its result at the last stage of the arguments' launch contents, the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59)
        = Read.val_main_v59 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans (result_after (launchContents m c)), (h c).2⟩)
    (Value.run (F := Ideal) m ρ)

end Cert.ReferenceIdeal.SageRef

end
-- ==== Proof.RefLayer1.lean ====
/-
  The first layer of the reference, read at an entry.

  The reference gathers the node features at the source column of the first edge list and scatter-adds them into a zero
  array at the target column: entry (n, k) of the result is the sum of feature k over the edges coming into node n.  It
  scatter-adds ones into a zero vector at the same target column and takes the maximum with one: the clamped in-degree.
  The quotient goes through the first weight matrix, the bias is added, the node's own features go through the second weight
  matrix, and the sum is rectified.  Each step is read at an index from the step before; the result is the specification's
  hidden features.
-/
import proofs.«169007_j60086592471214_2_alg».proof.Proof.PatchedReferenceRead
import proofs.«169007_j60086592471214_2_alg».proof.Proof.SageSpec
import proofs.«169007_j60086592471214_2_alg».proof.Proof.LibSegmentGather

noncomputable section

open scoped BigOperators

namespace Cert.ReferenceIdeal.SageRef

open Cert.ReferenceIdeal Cert.ReferenceIdeal.Gen Idealize.ShloMosaic Idealize.ShloMosaic.ValueIdx Idealize.ShloMosaic.RowScatter

/-! ## The gather and the two scatter-adds, over any operands -/

/-- The printed dimension numbers of the row scatter-add, the row gather and the entry scatter-add are the library's. -/
theorem scatterRows_eq :
    scatter_S100000x128_S1000000x1_S1000000x128_1_0_0_1 = scatterRows 100000 1000000 128 scatter_S100000x128_S1000000x1_S1000000x128_1_0_0_1_wf := rfl
theorem gatherRows_eq :
    gather_S100000x128_S1000000x1_S1000000x128_1_0_n_n_0_1_1128 = gatherRows 100000 1000000 128 gather_S100000x128_S1000000x1_S1000000x128_1_0_n_n_0_1_1128_wf := rfl
theorem scatterCol_eq :
    scatter_S100000_S1000000x1_S1000000_n_0_0_1 = scatterCol 100000 1000000 scatter_S100000_S1000000x1_S1000000_n_0_0_1_wf := rfl

/-- Rows gathered at a source column and scatter-added into a zero array at a target column: entry (n, k) is the sum of
    column k over the edges coming into node n. -/
theorem segmentSum_apply (z X : FVec Ideal ⟨2, ![100000, 128]⟩ .f32) (hz : ∀ i, z i = (0 : EReal)) (t s : Sage.Col)
    (n : Fin 100000) (k : Fin 128) :
    Host.scatterAdd scatter_S100000x128_S1000000x1_S1000000x128_1_0_0_1 z t
        (Host.gather gather_S100000x128_S1000000x1_S1000000x128_1_0_n_n_0_1_1128 X s) (ix2 n k)
      = Sage.nsum (Sage.nbOf t) (Sage.srcOf s) (Sage.mat X) n k := by
  rw [scatterRows_eq, gatherRows_eq]
  exact scatterAdd_gather_zero_apply (by norm_num) _ _ z X hz t s n k

/-- Ones scatter-added into a zero vector at a target column: entry n is zero plus a one for each edge coming into n. -/
theorem segmentCount_apply (z : FVec Ideal ⟨1, ![100000]⟩ .f32) (u : FVec Ideal ⟨1, ![1000000]⟩ .f32)
    (hz : ∀ i, z i = (0 : EReal)) (hu : ∀ i, u i = (1 : EReal)) (t : Sage.Col) (n : Fin 100000) :
    Host.scatterAdd scatter_S100000_S1000000x1_S1000000_n_0_0_1 z t u (ix1 n)
      = 0 + ∑ _e ∈ Sage.nbOf t n, (1 : EReal) := by
  rw [scatterCol_eq]
  refine (scatterAddCol_apply _ z t u n).trans ?_
  rw [hz]
  exact congrArg (0 + ·) (Finset.sum_congr rfl fun e _ => hu _)

/-! ## The first layer -/

theorem zeros_v11 (i : S100000x128.Idx) : Read.val_main_v11 (F := Ideal) i = (0 : EReal) := by
  rw [Read.val_main_v11_apply, Read.val_main_cst_apply]
  exact Ideal.ofBits_zero_f32

theorem zeros_v15 (i : S100000.Idx) : Read.val_main_v15 (F := Ideal) i = (0 : EReal) := by
  rw [Read.val_main_v15_apply, Read.val_main_cst_2_apply]
  exact Ideal.ofBits_zero_f32

theorem ones_v14 (i : S1000000.Idx) : Read.val_main_v14 (F := Ideal) i = (1 : EReal) := by
  rw [Read.val_main_v14_apply, Read.val_main_cst_1_apply]
  exact MeanScale.ofBits_one_f32

/-- The two broadcasts of the target row are one column. -/
theorem v16_eq_v12 (x1 : (⟨S2x1000000, .i32⟩ : BufTy).Contents (Elt Ideal)) : Read.val_main_v16 (F := Ideal) x1 = Read.val_main_v12 (F := Ideal) x1 := by
  unfold Read.val_main_v16 Read.val_main_v12
  rfl

/-- The neighbour sum of the node features. -/
theorem v13_apply (x0 : (⟨S100000x128, .f32⟩ : BufTy).Contents (Elt Ideal)) (x1 : (⟨S2x1000000, .i32⟩ : BufTy).Contents (Elt Ideal)) (n : Fin 100000) (k : Fin 128) :
    Read.val_main_v13 (F := Ideal) x0 x1 (ix2 n k)
      = Sage.nsum (Sage.nbOf (Read.val_main_v12 (F := Ideal) x1)) (Sage.srcOf (Read.val_main_v9 (F := Ideal) x1)) (Sage.mat x0) n k := by
  unfold Read.val_main_v13 Read.val_main_v10
  exact segmentSum_apply _ x0 zeros_v11 _ _ n k

/-- The clamped in-degree. -/
theorem v19_apply (x1 : (⟨S2x1000000, .i32⟩ : BufTy).Contents (Elt Ideal)) (n : Fin 100000) :
    Read.val_main_v19 (F := Ideal) x1 (ix1 n) = Sage.deg (Sage.nbOf (Read.val_main_v12 (F := Ideal) x1)) n := by
  rw [Read.val_main_v19_apply, Read.val_main_v18_apply, Read.val_main_cst_3_apply]
  unfold Read.val_main_v17
  rw [segmentCount_apply _ _ zeros_v15 ones_v14, v16_eq_v12]
  show max _ (Ideal.ofBits .f32 0x3F800000#32) = _
  rw [MeanScale.ofBits_one_f32]
  rfl

/-- The neighbour mean. -/
theorem v22_apply (x0 : (⟨S100000x128, .f32⟩ : BufTy).Contents (Elt Ideal)) (x1 : (⟨S2x1000000, .i32⟩ : BufTy).Contents (Elt Ideal)) (n : Fin 100000) (k : Fin 128) :
    Read.val_main_v22 (F := Ideal) x0 x1 (ix2 n k)
      = Ideal.div (Sage.nsum (Sage.nbOf (Read.val_main_v12 (F := Ideal) x1)) (Sage.srcOf (Read.val_main_v9 (F := Ideal) x1)) (Sage.mat x0) n k)
          (Sage.deg (Sage.nbOf (Read.val_main_v12 (F := Ideal) x1)) n) := by
  have e : Read.idx_main_v20 (Read.idx_main_v21 (ix2 n k)) = ix1 n := funext fun a => Fin.ext (by match a with | ⟨0, _⟩ => rfl)
  rw [Read.val_main_v22_apply, v13_apply, Read.val_main_v21_apply, Read.val_main_v20_apply, e, v19_apply]
  rfl

/-- The neighbour mean through the first weight matrix. -/
theorem v23_apply (x0 : (⟨S100000x128, .f32⟩ : BufTy).Contents (Elt Ideal)) (x1 : (⟨S2x1000000, .i32⟩ : BufTy).Contents (Elt Ideal)) (x3 : (⟨S128x128, .f32⟩ : BufTy).Contents (Elt Ideal)) (n : Fin 100000) (j : Fin 128) :
    Read.val_main_v23 (F := Ideal) x0 x1 x3 (ix2 n j)
      = ∑ k : Fin 128, Read.val_main_v22 (F := Ideal) x0 x1 (ix2 n k) * x3 (ix2 k j) := by
  rw [Read.val_main_v23_apply]
  refine Finset.sum_congr rfl fun k _ => ?_
  have el : Read.lidx_main_v23 (ix2 n j) k = ix2 n k := funext fun a => Fin.ext (by match a with | ⟨0, _⟩ => rfl | ⟨1, _⟩ => rfl)
  have er : Read.ridx_main_v23 (ix2 n j) k = ix2 k j := funext fun a => Fin.ext (by match a with | ⟨0, _⟩ => rfl | ⟨1, _⟩ => rfl)
  rw [el, er]

/-- The node's own features through the second weight matrix. -/
theorem v27_apply (x0 : (⟨S100000x128, .f32⟩ : BufTy).Contents (Elt Ideal)) (x5 : (⟨S128x128, .f32⟩ : BufTy).Contents (Elt Ideal)) (n : Fin 100000) (j : Fin 128) :
    Read.val_main_v27 (F := Ideal) x0 x5 (ix2 n j) = ∑ k : Fin 128, x0 (ix2 n k) * x5 (ix2 k j) := by
  rw [Read.val_main_v27_apply]
  refine Finset.sum_congr rfl fun k _ => ?_
  have el : Read.lidx_main_v27 (ix2 n j) k = ix2 n k := funext fun a => Fin.ext (by match a with | ⟨0, _⟩ => rfl | ⟨1, _⟩ => rfl)
  have er : Read.ridx_main_v27 (ix2 n j) k = ix2 k j := funext fun a => Fin.ext (by match a with | ⟨0, _⟩ => rfl | ⟨1, _⟩ => rfl)
  rw [el, er]

/-- The bias broadcast down the rows. -/
theorem v25_apply (x4 : (⟨S128, .f32⟩ : BufTy).Contents (Elt Ideal)) (n : Fin 100000) (j : Fin 128) :
    Read.val_main_v25 (F := Ideal) x4 (ix2 n j) = x4 (ix1 j) := by
  have e : Read.idx_main_v24 (Read.idx_main_v25 (ix2 n j)) = ix1 j := funext fun a => Fin.ext (by match a with | ⟨0, _⟩ => rfl)
  rw [Read.val_main_v25_apply, Read.val_main_v24_apply, e]

/-- The hidden features: the first layer, rectified. -/
theorem v29_apply (x0 : (⟨S100000x128, .f32⟩ : BufTy).Contents (Elt Ideal)) (x1 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (n : Fin 100000) (j : Fin 128) :
    Read.val_main_v29 (F := Ideal) x0 x1 x3 x4 x5 (ix2 n j)
      = Sage.hiddenOf (Read.val_main_v12 (F := Ideal) x1) (Read.val_main_v9 (F := Ideal) x1) x0 x3 x4 x5 n j := by
  rw [Read.val_main_v29_apply, Read.val_main_v28_apply, Read.val_main_v26_apply, v23_apply, v25_apply, v27_apply,
    Read.val_main_call0_v0_apply, Read.val_main_call0_cst_apply]
  simp only [v22_apply]
  show max _ (Ideal.ofBits .f32 0x00000000#32) = _
  rw [Ideal.ofBits_zero_f32]
  rfl

end Cert.ReferenceIdeal.SageRef

end
-- ==== Proof.RefEntry.lean ====
/-
  The second layer and the log-softmax of the reference, read at an entry.

  The second layer is the first layer's arrangement on the hidden features: their neighbour sum over the second edge list,
  divided by the clamped in-degree, through a weight matrix, plus a bias, plus the hidden features through another weight
  matrix: the logits.  The log-softmax takes each row's maximum as a fold of the maximum from −∞ (and once more the maximum
  with −∞, which changes nothing), subtracts it, and subtracts the logarithm of the row's sum of exponentials, a sum that
  starts from zero.  Read at entry (n, j) this is the specification's formula.
-/
import proofs.«169007_j60086592471214_2_alg».proof.Proof.RefLayer1
import proofs.«169007_j60086592471214_2_alg».proof.Proof.LibColumnLayout

noncomputable section

open scoped BigOperators

namespace Cert.ReferenceIdeal.SageRef

open Cert.ReferenceIdeal Cert.ReferenceIdeal.Gen Idealize.ShloMosaic Idealize.ShloMosaic.ValueIdx Idealize.ShloMosaic.RowScatter

/-! ## The second layer -/

theorem zeros_v41 (i : S100000x128.Idx) : Read.val_main_v41 (F := Ideal) i = (0 : EReal) := by
  rw [Read.val_main_v41_apply, Read.val_main_cst_6_apply]
  exact Ideal.ofBits_zero_f32

theorem zeros_v45 (i : S100000.Idx) : Read.val_main_v45 (F := Ideal) i = (0 : EReal) := by
  rw [Read.val_main_v45_apply, Read.val_main_cst_8_apply]
  exact Ideal.ofBits_zero_f32

theorem ones_v44 (i : S1000000.Idx) : Read.val_main_v44 (F := Ideal) i = (1 : EReal) := by
  rw [Read.val_main_v44_apply, Read.val_main_cst_7_apply]
  exact MeanScale.ofBits_one_f32

/-- The two broadcasts of the second target row are one column. -/
theorem v46_eq_v42 (x2 : (⟨S2x1000000, .i32⟩ : BufTy).Contents (Elt Ideal)) : Read.val_main_v46 (F := Ideal) x2 = Read.val_main_v42 (F := Ideal) x2 := by
  unfold Read.val_main_v46 Read.val_main_v42
  rfl

/-- The neighbour sum of the hidden features. -/
theorem v43_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (n : Fin 100000) (k : Fin 128) :
    Read.val_main_v43 (F := Ideal) x0 x1 x2 x3 x4 x5 (ix2 n k)
      = Sage.nsum (Sage.nbOf (Read.val_main_v42 (F := Ideal) x2)) (Sage.srcOf (Read.val_main_v39 (F := Ideal) x2)) (Sage.mat (Read.val_main_v29 (F := Ideal) x0 x1 x3 x4 x5)) n k := by
  unfold Read.val_main_v43 Read.val_main_v40
  exact segmentSum_apply _ _ zeros_v41 _ _ n k

/-- The clamped in-degree over the second edge list. -/
theorem v49_apply (x2 : (⟨S2x1000000, .i32⟩ : BufTy).Contents (Elt Ideal)) (n : Fin 100000) :
    Read.val_main_v49 (F := Ideal) x2 (ix1 n) = Sage.deg (Sage.nbOf (Read.val_main_v42 (F := Ideal) x2)) n := by
  rw [Read.val_main_v49_apply, Read.val_main_v48_apply, Read.val_main_cst_9_apply]
  unfold Read.val_main_v47
  rw [segmentCount_apply _ _ zeros_v45 ones_v44, v46_eq_v42]
  show max _ (Ideal.ofBits .f32 0x3F800000#32) = _
  rw [MeanScale.ofBits_one_f32]
  rfl

/-- The neighbour mean of the hidden features. -/
theorem v52_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (n : Fin 100000) (k : Fin 128) :
    Read.val_main_v52 (F := Ideal) x0 x1 x2 x3 x4 x5 (ix2 n k)
      = Ideal.div (Sage.nsum (Sage.nbOf (Read.val_main_v42 (F := Ideal) x2)) (Sage.srcOf (Read.val_main_v39 (F := Ideal) x2)) (Sage.mat (Read.val_main_v29 (F := Ideal) x0 x1 x3 x4 x5)) n k) (Sage.deg (Sage.nbOf (Read.val_main_v42 (F := Ideal) x2)) n) := by
  have e : Read.idx_main_v50 (Read.idx_main_v51 (ix2 n k)) = ix1 n := funext fun a => Fin.ext (by match a with | ⟨0, _⟩ => rfl)
  rw [Read.val_main_v52_apply, v43_apply, Read.val_main_v51_apply, Read.val_main_v50_apply, e, v49_apply]
  rfl

theorem v53_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (n : Fin 100000) (j : Fin 64) :
    Read.val_main_v53 (F := Ideal) x0 x1 x2 x3 x4 x5 x6 (ix2 n j)
      = ∑ k : Fin 128, Read.val_main_v52 (F := Ideal) x0 x1 x2 x3 x4 x5 (ix2 n k) * x6 (ix2 k j) := by
  rw [Read.val_main_v53_apply]
  refine Finset.sum_congr rfl fun k _ => ?_
  have el : Read.lidx_main_v53 (ix2 n j) k = ix2 n k := funext fun a => Fin.ext (by match a with | ⟨0, _⟩ => rfl | ⟨1, _⟩ => rfl)
  have er : Read.ridx_main_v53 (ix2 n j) k = ix2 k j := funext fun a => Fin.ext (by match a with | ⟨0, _⟩ => rfl | ⟨1, _⟩ => rfl)
  rw [el, er]

theorem v57_apply (x0 : (⟨S100000x128, .f32⟩ : BufTy).Contents (Elt Ideal)) (x1 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x8 : (⟨S128x64, .f32⟩ : BufTy).Contents (Elt Ideal)) (n : Fin 100000) (j : Fin 64) :
    Read.val_main_v57 (F := Ideal) x0 x1 x3 x4 x5 x8 (ix2 n j)
      = ∑ k : Fin 128, (Read.val_main_v29 (F := Ideal) x0 x1 x3 x4 x5) (ix2 n k) * x8 (ix2 k j) := by
  rw [Read.val_main_v57_apply]
  refine Finset.sum_congr rfl fun k _ => ?_
  have el : Read.lidx_main_v57 (ix2 n j) k = ix2 n k := funext fun a => Fin.ext (by match a with | ⟨0, _⟩ => rfl | ⟨1, _⟩ => rfl)
  have er : Read.ridx_main_v57 (ix2 n j) k = ix2 k j := funext fun a => Fin.ext (by match a with | ⟨0, _⟩ => rfl | ⟨1, _⟩ => rfl)
  rw [el, er]

theorem v55_apply (x7 : (⟨S64, .f32⟩ : BufTy).Contents (Elt Ideal)) (n : Fin 100000) (j : Fin 64) :
    Read.val_main_v55 (F := Ideal) x7 (ix2 n j) = x7 (ix1 j) := by
  have e : Read.idx_main_v54 (Read.idx_main_v55 (ix2 n j)) = ix1 j := funext fun a => Fin.ext (by match a with | ⟨0, _⟩ => rfl)
  rw [Read.val_main_v55_apply, Read.val_main_v54_apply, e]

/-- The hidden features, as a function of the node and the feature, are the specification's. -/
theorem mat_hidden (x0 : (⟨S100000x128, .f32⟩ : BufTy).Contents (Elt Ideal)) (x1 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    Sage.mat (Read.val_main_v29 (F := Ideal) x0 x1 x3 x4 x5) = Sage.hiddenOf (Read.val_main_v12 (F := Ideal) x1) (Read.val_main_v9 (F := Ideal) x1) x0 x3 x4 x5 :=
  funext fun n => funext fun k => by
    unfold Sage.mat
    exact v29_apply x0 x1 x3 x4 x5 n k

/-- The second layer on the hidden features as an array. -/
theorem v58_conv (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) (j : Fin 64) :
    Read.val_main_v58 (F := Ideal) x0 x1 x2 x3 x4 x5 x6 x7 x8 (ix2 n j)
      = Sage.conv (Sage.nbOf (Read.val_main_v42 (F := Ideal) x2)) (Sage.srcOf (Read.val_main_v39 (F := Ideal) x2)) (Sage.mat (Read.val_main_v29 (F := Ideal) x0 x1 x3 x4 x5)) (Sage.mat x6) (Sage.vec x7) (Sage.mat x8) n j := by
  rw [Read.val_main_v58_apply, Read.val_main_v56_apply, v53_apply, v55_apply, v57_apply]
  simp only [v52_apply]
  generalize Read.val_main_v29 (F := Ideal) x0 x1 x3 x4 x5 = h
  rfl

/-- The logits: the second layer on the specification's hidden features. -/
theorem v58_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) (j : Fin 64) :
    Read.val_main_v58 (F := Ideal) x0 x1 x2 x3 x4 x5 x6 x7 x8 (ix2 n j)
      = Sage.logitsOf (Read.val_main_v12 (F := Ideal) x1) (Read.val_main_v9 (F := Ideal) x1) (Read.val_main_v42 (F := Ideal) x2) (Read.val_main_v39 (F := Ideal) x2) x0 x3 x4 x5 x6 x7 x8 n j := by
  rw [v58_conv, mat_hidden]
  rfl

/-! ## The log-softmax -/

/-- The host's maximum-reduction over the last axis of a rank-2 array, from an initial value that is −∞, at a row: the
    fold of `max` from ⊥ over the row's entries. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (hinit : init (Shape.Idx.first hu) = (⊥ : EReal)) (p : Fin a) :
    Host.reduce FloatOps.maximumf x init h' hu (ix1 p)
      = (Finset.univ : Finset (Fin b)).fold max (⊥ : EReal) (fun k => x (ix2 p k)) := by
  refine (Host.reduce_eq_fold_single (FloatOps.maximumf (F := Ideal) (φ := .f32)) x init h' h hu (ix1 p)).trans ?_
  rw [hinit]
  show (Finset.univ : Finset (Fin b)).fold max (⊥ : EReal) (x ∘ h.lift (ix1 p)) = _
  refine congrArg (Finset.fold max ⊥ · Finset.univ) (funext fun k => congrArg x (funext fun ax => Fin.ext ?_))
  match ax with
  | ⟨0, _⟩ => rfl
  | ⟨1, _⟩ => rfl

/-- A row's maximum. -/
theorem rowMax_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) :
    Read.val_main_call1_v0 (F := Ideal) x0 x1 x2 x3 x4 x5 x6 x7 x8 (ix1 n) = Sage.rowMax fun j => Read.val_main_v58 (F := Ideal) x0 x1 x2 x3 x4 x5 x6 x7 x8 (ix2 n j) := by
  unfold Read.val_main_call1_v0
  generalize Read.val_main_v58 (F := Ideal) x0 x1 x2 x3 x4 x5 x6 x7 x8 = z
  have hinit : Read.val_main_call1_cst (F := Ideal) (Shape.Idx.first h_S_) = (⊥ : EReal) := by
    rw [Read.val_main_call1_cst_apply]
    exact ColumnLayout.ofBits_neg_inf_f32
  exact hostRowMax_apply z _ reducesTo_S100000x64_S100000_d1 (by decide) h_S_ hinit n

/-- The logits shifted by their row's maximum. -/
theorem shifted_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) (j : Fin 64) :
    Read.val_main_call1_v5 (F := Ideal) x0 x1 x2 x3 x4 x5 x6 x7 x8 (ix2 n j)
      = Read.val_main_v58 (F := Ideal) x0 x1 x2 x3 x4 x5 x6 x7 x8 (ix2 n j) - Sage.rowMax fun j' => Read.val_main_v58 (F := Ideal) x0 x1 x2 x3 x4 x5 x6 x7 x8 (ix2 n j') := by
  have e : Read.idx_main_call1_v3 (Read.idx_main_call1_v4 (ix2 n j)) = ix1 n := funext fun a => Fin.ext (by match a with | ⟨0, _⟩ => rfl)
  rw [Read.val_main_call1_v5_apply, Read.val_main_call1_v4_apply, Read.val_main_call1_v3_apply, e,
    Read.val_main_call1_v2_apply, Read.val_main_call1_v1_apply, Read.val_main_call1_cst_0_apply, rowMax_apply]
  show (_ - max (Ideal.ofBits .f32 0xFF800000#32) _ : EReal) = _
  rw [ColumnLayout.ofBits_neg_inf_f32, Sage.max_bot_rowMax]

/-- A row's sum of exponentials of the shifted logits. -/
theorem sumExp_apply (x0 : (⟨S100000x128, .f32⟩ : BufTy).Contents (Elt Ideal)) (x1 x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) :
    Read.val_main_call1_v7 (F := Ideal) x0 x1 x2 x3 x4 x5 x6 x7 x8 (ix1 n)
      = ∑ j' : Fin 64, Ideal.exp (Read.val_main_v58 (F := Ideal) x0 x1 x2 x3 x4 x5 x6 x7 x8 (ix2 n j') - Sage.rowMax fun j'' => Read.val_main_v58 (F := Ideal) x0 x1 x2 x3 x4 x5 x6 x7 x8 (ix2 n j'')) := by
  rw [Read.val_main_call1_v7_apply, Read.val_main_call1_cst_1_apply]
  show (Ideal.ofBits .f32 0x00000000#32 + _ : EReal) = _
  rw [Ideal.ofBits_zero_f32, zero_add]
  refine Finset.sum_congr rfl fun k _ => ?_
  have e : Read.idx_main_call1_v7 (ix1 n) k = ix2 n k := funext fun a => Fin.ext (by match a with | ⟨0, _⟩ => rfl | ⟨1, _⟩ => rfl)
  rw [e, Read.val_main_call1_v6_apply, shifted_apply]
  generalize Read.val_main_v58 (F := Ideal) x0 x1 x2 x3 x4 x5 x6 x7 x8 = z
  rfl

/-- The reference's result at entry (n, j) is the specification's formula. -/
theorem out_apply (x0 : (⟨S100000x128, .f32⟩ : BufTy).Contents (Elt Ideal)) (x1 : (⟨S2x1000000, .i32⟩ : BufTy).Contents (Elt Ideal)) (x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x64, .f32⟩ : BufTy).Contents (Elt Ideal)) (x7 : (⟨S64, .f32⟩ : BufTy).Contents (Elt Ideal)) (x8 : (⟨S128x64, .f32⟩ : BufTy).Contents (Elt Ideal)) (n : Fin 100000) (j : Fin 64) :
    Read.val_main_v59 (F := Ideal) x0 x1 x2 x3 x4 x5 x6 x7 x8 (ValueIdx.ix2 n j)
      = Sage.outOf (Read.val_main_v12 (F := Ideal) x1) (Read.val_main_v9 (F := Ideal) x1) (Read.val_main_v42 (F := Ideal) x2) (Read.val_main_v39 (F := Ideal) x2) x0 x3 x4 x5 x6 x7 x8 n j := by
  have e : Read.idx_main_call1_v8 (Read.idx_main_call1_v10 (ix2 n j)) = ix1 n := funext fun a => Fin.ext (by match a with | ⟨0, _⟩ => rfl)
  rw [Read.val_main_v59_apply, shifted_apply, Read.val_main_call1_v10_apply, Read.val_main_call1_v9_apply,
    Read.val_main_call1_v8_apply, e, sumExp_apply]
  simp only [v58_apply]
  unfold Sage.outOf Sage.logSoftmaxRow
  generalize Sage.logitsOf (Read.val_main_v12 (F := Ideal) x1) (Read.val_main_v9 (F := Ideal) x1) (Read.val_main_v42 (F := Ideal) x2)
    (Read.val_main_v39 (F := Ideal) x2) x0 x3 x4 x5 x6 x7 x8 = L
  rfl

end Cert.ReferenceIdeal.SageRef

end
-- ==== Proof.lean ====
/-
  The certificate: the three programs run and keep their arguments, and the idealized kernel and the idealized reference
  end with the same result.

  Both programs are two layers of neighbour-mean graph convolution with a rectifier between them and a row-wise
  log-softmax at the end.  They differ in two places.  The kernel program multiplies a node's neighbour sum by the
  reciprocal of its clamped in-degree where the reference divides by the clamped in-degree: the same extended real, with
  no finiteness.  And in the second layer the kernel program projects every node's hidden features through the left
  weights first and takes the neighbour mean of the projections, where the reference takes the mean first and projects
  it: equal because the hidden features and the weights are real numbers — which is where the precondition (every float
  input finite) is used — so that the two finite sums may be exchanged.  Entry by entry both results are then the same
  formula of the argument arrays.
-/
import proofs.«169007_j60086592471214_2_alg».proof.Defs
import proofs.«169007_j60086592471214_2_alg».proof.Proof.Gen.Kernel
import proofs.«169007_j60086592471214_2_alg».proof.Proof.Gen.KernelIdeal
import proofs.«169007_j60086592471214_2_alg».proof.Proof.Gen.ReferenceIdeal
import proofs.«169007_j60086592471214_2_alg».proof.Proof.Gen.Pre_finite_inputs
import proofs.«169007_j60086592471214_2_alg».proof.Proof.PatchedKernelFrame
import proofs.«169007_j60086592471214_2_alg».proof.Proof.PatchedKernelIdealFrame
import proofs.«169007_j60086592471214_2_alg».proof.Proof.KernelHost
import proofs.«169007_j60086592471214_2_alg».proof.Proof.KernelValue
import proofs.«169007_j60086592471214_2_alg».proof.Proof.PreReal
import proofs.«169007_j60086592471214_2_alg».proof.Proof.RefStages
import proofs.«169007_j60086592471214_2_alg».proof.Proof.RefEntry
import Idealize.ShloMosaic.Adequacy
import Idealize.ShloMosaic.Init

set_option maxRecDepth 16384

noncomputable section

namespace Cert.Proof

open Idealize.ShloMosaic Idealize.SL.Sem Idealize.ShloMosaic.ValueIdx

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.SageRef.run_ref m ρ)

/-- The two idealized programs end with the same result: entry `(n, j)` of both is the specification's formula. -/
theorem algebraic : Cert.algebraic_KernelIdeal_ReferenceIdeal := by
  intro m ρ m' ρ' hpre hagree
  refine ⟨fun c => Cert.KernelIdeal.SageHost.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.SageHost.result_eq m ρ c), (h c).2⟩)
      (Cert.KernelIdeal.Gen.run_value (F := Ideal) m ρ)
  · refine (θ_run Cert.ReferenceIdeal.defs _ _).mono (fun r h c => ⟨(h c).1.trans ?_, (h c).2⟩) (Cert.ReferenceIdeal.SageRef.run_ref m' ρ')
    obtain ⟨a0, a1, a2, a3, a4, a5, a6, a7, a8⟩ := hagree c
    obtain ⟨r0, r3, r4, r5, r6⟩ := Cert.PreReal.real_entries m hpre c
    rw [a0, a1, a2, a3, a4, a5, a6, a7, a8]
    funext i
    obtain ⟨n, j, rfl⟩ : ∃ (n : Fin 100000) (j : Fin 64), i = ix2 n j := ⟨i 0, i 1, eq_ix2 i⟩
    beta_reduce
    rw [Cert.ReferenceIdeal.SageRef.out_apply, Cert.KernelIdeal.SageValue.kOut_apply _ _ _ _ _ _ _ _ _ r0 r3 r4 r5 r6]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
